-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S384x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x512 .f32) (main_arg1 : IVec S1600000 32) (main_arg2 : IVec S1600000 32) (main_arg3 : FVec F S512x128 .f32) (main_arg4 : FVec F S128 .f32) (main_arg5 : FVec F S128x128 .f32) (main_arg6 : FVec F S128 .f32) (main_arg7 : FVec F S384x128 .f32) (main_arg8 : FVec F S128 .f32) (main_arg9 : FVec F S128x2 .f32) (main_arg10 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S1x128 : Shape := ⟨2, ![1, 128]⟩
abbrev S100000x128 : Shape := ⟨2, ![100000, 128]⟩
abbrev S2000x512 : Shape := ⟨2, ![2000, 512]⟩
abbrev S2000x128 : Shape := ⟨2, ![2000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩
abbrev S1 : Shape := ⟨1, ![1]⟩
abbrev S2000x384 : Shape := ⟨2, ![2000, 384]⟩
abbrev S100000x2 : Shape := ⟨2, ![100000, 2]⟩

abbrev nBuf : Space → Nat
  | .hbm => 118
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S100000x512, .bf16⟩
  | .hbm, ⟨12, _⟩ => ⟨S512x128, .bf16⟩
  | .hbm, ⟨13, _⟩ => ⟨S128x128, .bf16⟩
  | .hbm, ⟨14, _⟩ => ⟨S1x128, .f32⟩
  | .hbm, ⟨15, _⟩ => ⟨S1x128, .f32⟩
  | .hbm, ⟨16, _⟩ => ⟨S100000x128, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x384, .f32⟩
  | .hbm, ⟨101, _⟩ => ⟨S100000x384, .bf16⟩
  | .hbm, ⟨102, _⟩ => ⟨S384x128, .bf16⟩
  | .hbm, ⟨103, _⟩ => ⟨S1x128, .f32⟩
  | .hbm, ⟨104, _⟩ => ⟨S_, .f32⟩
  | .hbm, ⟨105, _⟩ => ⟨S128x128, .f32⟩
  | .hbm, ⟨106, _⟩ => ⟨S_, .i32⟩
  | .hbm, ⟨107, _⟩ => ⟨S1, .i32⟩
  | .hbm, ⟨108, _⟩ => ⟨S128x128, .f32⟩
  | .hbm, ⟨109, _⟩ => ⟨S_, .f32⟩
  | .hbm, ⟨110, _⟩ => ⟨S128, .f32⟩
  | .hbm, ⟨111, _⟩ => ⟨S_, .i32⟩
  | .hbm, ⟨112, _⟩ => ⟨S1, .i32⟩
  | .hbm, ⟨113, _⟩ => ⟨S128, .f32⟩
  | .hbm, ⟨114, _⟩ => ⟨S128x128, .bf16⟩
  | .hbm, ⟨115, _⟩ => ⟨S1x128, .f32⟩
  | .hbm, ⟨116, _⟩ => ⟨S100000x128, .f32⟩
  | .hbm, ⟨117, _⟩ => ⟨S100000x2, .f32⟩
  | .local _ .vmem, ⟨0, _⟩ => ⟨S2000x512, .bf16⟩
  | .local _ .vmem, ⟨1, _⟩ => ⟨S2000x512, .bf16⟩
  | .local _ .vmem, ⟨2, _⟩ => ⟨S512x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x384, .bf16⟩
  | .local _ .vmem, ⟨9, _⟩ => ⟨S2000x384, .bf16⟩
  | .local _ .vmem, ⟨10, _⟩ => ⟨S384x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_17 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_cst_19 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  slices_S100000x128_S100000x2_0_0 : S100000x128.Slices ![0, 0] S100000x2
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S1_S128x2_01_n_1_0_wf : ScatterDims.WF S128x128 S1 S128x2 [0, 1] [] [1] 0
  scatter_S128_S1_S2_0_n_0_0_wf : ScatterDims.WF S128 S1 S2 [0] [] [0] 0
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .bf16 = 32 ∨ (Rect.block (s := S100000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S100000x384.size a
  hwx1_0 : ∀ i : grid1.Coords, EltTy.bits .bf16 = 32 ∨ (Rect.block (s := S100000x384) S2000x384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .bf16 = 32 ∨ (Rect.block (s := S384x128) S384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v69) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v79) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩
abbrev S100000x2 : Shape := ⟨2, ![100000, 2]⟩
abbrev S1x2 : Shape := ⟨2, ![1, 2]⟩

abbrev nBuf : Space → Nat
  | .hbm => 192
  | .vmem => 0
  | .smem => 0
  | _ => 0

abbrev hbmTy0_0 (i : Nat) : BufTy := match i % 128 with
  | 0 => ⟨S100000x512, .f32⟩
  | 1 => ⟨S1600000, .i32⟩
  | 2 => ⟨S1600000, .i32⟩
  | 3 => ⟨S512x128, .f32⟩
  | 4 => ⟨S128, .f32⟩
  | 5 => ⟨S128x128, .f32⟩
  | 6 => ⟨S128, .f32⟩
  | 7 => ⟨S384x128, .f32⟩
  | 8 => ⟨S128, .f32⟩
  | 9 => ⟨S128x2, .f32⟩
  | 10 => ⟨S2, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .f32⟩
  | 40 => ⟨S100000x128, .f32⟩
  | 41 => ⟨S100000x128, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x128, .f32⟩
  | 127 => ⟨S100000x128, .f32⟩
  | _ => ⟨S100000x512, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S100000x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S100000x384, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x2, .f32⟩
  | 61 => ⟨S1x2, .f32⟩
  | 62 => ⟨S100000x2, .f32⟩
  | 63 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_call2_v0 : Ref sig .tc := ⟨.hbm, 32, rfl⟩
abbrev main_call2_v1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_21 : Ref sig .tc := ⟨.hbm, 138, rfl⟩
abbrev main_v98 : Ref sig .tc := ⟨.hbm, 139, rfl⟩
abbrev main_v99 : Ref sig .tc := ⟨.hbm, 140, rfl⟩
abbrev main_c_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_25 : Ref sig .tc := ⟨.hbm, 160, rfl⟩
abbrev main_v116 : Ref sig .tc := ⟨.hbm, 161, rfl⟩
abbrev main_v117 : Ref sig .tc := ⟨.hbm, 162, rfl⟩
abbrev main_c_26 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_27 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_28 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_call3_cst : Ref sig .tc := ⟨.hbm, 185, rfl⟩
abbrev main_call3_v0 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []
  dot_S100000x128_S128x2_S100000x2_1_0_0_1_n_n_wf : DotDims.WF S100000x128 S128x2 S100000x2 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.K.Region0.lean ====
/-
  Region 0 of the program (the two-layer input transform), at any contents V of the core's buffers when the region is entered.
  A grid point t sees block t of the row-tiled operand (window 0), the whole of the four weight and bias operands
  (windows 1 to 4: their block index never moves, so they are fetched once and stay), and writes block t of the result
  (window 5). The body reads the five input buffers whole and stores the result buffer whole, so after the body the
  result buffer holds the body's one payload of the five blocks; the inputs' buffers are left as they were.
-/
import proofs.«142224_j10273561772519_1_alg».proof.Proof.Gen.Kernel.Launch
import proofs.«142224_j10273561772519_1_alg».proof.Proof.Gen.Kernel.Skeleton
import proofs.«142224_j10273561772519_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or kept from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or kept from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or kept from an earlier point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or kept from an earlier point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x512 := Rect.unit (s := S2000x512) ![0, 0] S2000x512.size inb_S2000x512_S2000x512_0_0
abbrev r0_1 : Rect S512x128 := Rect.unit (s := S512x128) ![0, 0] S512x128.size inb_S512x128_S512x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S1x128 := Rect.unit (s := S1x128) ![0, 0] S1x128.size inb_S1x128_S1x128_0_0
abbrev r0_5 : Rect S2000x128 := Rect.unit (s := S2000x128) ![0, 0] S2000x128.size inb_S2000x128_S2000x128_0_0

/-- The result buffer after the body: its one store, of the payload of the five input buffers read whole. -/
def out0_5 (x0 : Vec F S2000x512 .bf16) (x1 : Vec F S512x128 .bf16) (x2 : Vec F S1x128 .f32) (x3 : Vec F S128x128 .bf16) (x4 : Vec F S1x128 .f32) : Vec F S2000x128 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S2000x128 .f32) (y : S2000x128.Idx) :
    ∃ pc ∈ ([⟨r0_5, p0⟩] : List (View.Piece (Elt F) S2000x128 .f32)), y ∈ pc.1.set :=
  View.cover_of_tiled [⟨r0_5, p0⟩] S2000x128.size (by rfl) y

set_option maxHeartbeats 4000000 in
/-- The body on whole buffers, the inputs' at contents x0 … x4 and the result's at anything, runs to the continuation
    with the inputs' as they were and the result's at `out0_5` of them. -/
theorem sound_kernel0 (c : Dev nD) (E : Set ℕ) (i : grid0.Coords) (arg1 : Memref sig .tc .vmem S2000x512 .bf16) (harg1 : arg1.IsWhole) (arg2 : Memref sig .tc .vmem S512x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S2000x128 .f32) (harg6 : arg6.IsWhole)
    (x0 : Vec F S2000x512 .bf16) (x1 : Vec F S512x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core c: the arrays as the region finds them; after the body each input's buffer at
    its block and the result's at `out0_5` of the blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  Region 1 of the program (the output head), at any contents V of the core's buffers when the region is entered.
  A grid point t sees block t of the row-tiled operand (window 0), the whole of the four weight and bias operands
  (windows 1 to 4: their block index never moves, so they are fetched once and stay), and writes block t of the result
  (window 5). The body reads the five input buffers whole and stores the result buffer whole, so after the body the
  result buffer holds the body's one payload of the five blocks; the inputs' buffers are left as they were.
-/
import proofs.«142224_j10273561772519_1_alg».proof.Proof.Gen.Kernel.Launch
import proofs.«142224_j10273561772519_1_alg».proof.Proof.Gen.Kernel.Skeleton
import proofs.«142224_j10273561772519_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or kept from an earlier point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or kept from an earlier point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or kept from an earlier point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or kept from an earlier point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or kept from an earlier point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S2000x128 := Rect.unit (s := S2000x128) ![0, 0] S2000x128.size inb_S2000x128_S2000x128_0_0

/-- The result buffer after the body: its one store, of the payload of the five input buffers read whole. -/
def out1_5 (x0 : Vec F S2000x384 .bf16) (x1 : Vec F S384x128 .bf16) (x2 : Vec F S1x128 .f32) (x3 : Vec F S128x128 .bf16) (x4 : Vec F S1x128 .f32) : Vec F S2000x128 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S2000x128 .f32) (y : S2000x128.Idx) :
    ∃ pc ∈ ([⟨r1_5, p0⟩] : List (View.Piece (Elt F) S2000x128 .f32)), y ∈ pc.1.set :=
  View.cover_of_tiled [⟨r1_5, p0⟩] S2000x128.size (by rfl) y

set_option maxHeartbeats 4000000 in
/-- The body on whole buffers, the inputs' at contents x0 … x4 and the result's at anything, runs to the continuation
    with the inputs' as they were and the result's at `out1_5` of them. -/
theorem sound_kernel1 (c : Dev nD) (E : Set ℕ) (i : grid1.Coords) (arg1 : Memref sig .tc .vmem S2000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S2000x128 .f32) (harg6 : arg6.IsWhole)
    (x0 : Vec F S2000x384 .bf16) (x1 : Vec F S384x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__head_kernel i arg1 harg1 arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core c: the arrays as the region finds them; after the body each input's buffer at
    its block and the result's at `out1_5` of the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The run of the whole program: its two regions among five stretches of host operations (the stretch between the regions
  cut in three: the degree count, the clamp, and the two Laplacian steps with the filter combinations, the last cut once more
  where the printed program is cut), from the launch to the return.
  The core's buffer contents at every boundary are a fold from the launch memory: a host stretch applies its operations,
  a region leaves its arrays at what its write-backs leave and every other buffer alone. No stretch and no region writes an
  argument array, so the fold read at an argument walks back to the launch memory. The run ends with every unscoped buffer
  at the last boundary's contents: the frame claim reads the arguments there, a value claim reads the result there.
-/
import proofs.«142224_j10273561772519_1_alg».proof.Proof.K.Region0
import proofs.«142224_j10273561772519_1_alg».proof.Proof.K.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the casts and reshapes of the first region's operands (region 0's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- At region 0's exit: its arrays at what the pipeline leaves (an input as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the degree count, -/
abbrev W3 : Dev nD → Valuation τ sig (Elt F) := fun c => StableHlo.after main_part0_ops1 (W2 m ρ c)
/-- the clamp, -/
abbrev W4 : Dev nD → Valuation τ sig (Elt F) := fun c => StableHlo.after main_part0_ops2 (W3 m ρ c)
/-- the Laplacian steps and the first filter's beginning, -/
abbrev W5 : Dev nD → Valuation τ sig (Elt F) := fun c => StableHlo.after main_part0_ops3 (W4 m ρ c)
/-- and the rest of the filters, the join and the padded head weights (region 1's entry). -/
abbrev W6 : Dev nD → Valuation τ sig (Elt F) := fun c => StableHlo.after main_part1_ops0 (W5 m ρ c)
abbrev V6 : (c : Dev nD) → (b : Ref sig .tc) → Buf (Elt F) ((c : Thread nD τ).loc b) := fun c b => W6 m ρ c b

/-- At region 1's exit: its arrays at what the pipeline leaves (an input as entered, the result's write-backs folded),
    every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the final slice: the contents at the return. -/
abbrev W8 : Dev nD → Valuation τ sig (Elt F) := fun c => StableHlo.after main_part1_ops1 (W7 m ρ c)

/-! ## No stretch writes an argument array -/

/-- The eleven argument arrays. -/
abbrev argRef : Fin 11 → Ref sig .tc :=
  ![main_arg0, main_arg1, main_arg2, main_arg3, main_arg4, main_arg5, main_arg6, main_arg7, main_arg8, main_arg9, main_arg10]

set_option maxHeartbeats 4000000 in
theorem keep_A0 (W : Valuation τ sig (Elt F)) (k : Fin 11) :
    StableHlo.after (main_part0_ops0 (F := F)) W (Proc.devRef .tc (argRef k)) = W (Proc.devRef .tc (argRef k)) :=
  StableHlo.after_of_forall_not_mem (b := Proc.devRef .tc (argRef k)) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_A1 (W : Valuation τ sig (Elt F)) (k : Fin 11) :
    StableHlo.after (main_part0_ops1 (F := F)) W (Proc.devRef .tc (argRef k)) = W (Proc.devRef .tc (argRef k)) :=
  StableHlo.after_of_forall_not_mem (b := Proc.devRef .tc (argRef k)) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_A2 (W : Valuation τ sig (Elt F)) (k : Fin 11) :
    StableHlo.after (main_part0_ops2 (F := F)) W (Proc.devRef .tc (argRef k)) = W (Proc.devRef .tc (argRef k)) :=
  StableHlo.after_of_forall_not_mem (b := Proc.devRef .tc (argRef k)) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_A3 (W : Valuation τ sig (Elt F)) (k : Fin 11) :
    StableHlo.after (main_part0_ops3 (F := F)) W (Proc.devRef .tc (argRef k)) = W (Proc.devRef .tc (argRef k)) :=
  StableHlo.after_of_forall_not_mem (b := Proc.devRef .tc (argRef k)) _ _ (List.forall_iff_forall_mem.mp (by
    simp only [main_part0_ops3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_B0 (W : Valuation τ sig (Elt F)) (k : Fin 11) :
    StableHlo.after (main_part1_ops0 (F := F)) W (Proc.devRef .tc (argRef k)) = W (Proc.devRef .tc (argRef k)) :=
  StableHlo.after_of_forall_not_mem (b := Proc.devRef .tc (argRef k)) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_B1 (W : Valuation τ sig (Elt F)) (k : Fin 11) :
    StableHlo.after (main_part1_ops1 (F := F)) W (Proc.devRef .tc (argRef k)) = W (Proc.devRef .tc (argRef k)) :=
  StableHlo.after_of_forall_not_mem (b := Proc.devRef .tc (argRef k)) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))

/-- At the return every argument array holds what it held at launch. -/
theorem W8_arg (c : Dev nD) (k : Fin 11) : W8 m ρ c (Proc.devRef .tc (argRef k)) = m ((c : Thread nD τ).loc (argRef k)) :=
  calc W8 m ρ c (Proc.devRef .tc (argRef k))
    _ = W7 m ρ c (Proc.devRef .tc (argRef k)) := keep_B1 _ k
    _ = W6 m ρ c (Proc.devRef .tc (argRef k)) := W7_of_ne m ρ c (argRef k) (by revert k; decide)
    _ = W5 m ρ c (Proc.devRef .tc (argRef k)) := keep_B0 _ k
    _ = W4 m ρ c (Proc.devRef .tc (argRef k)) := keep_A3 _ k
    _ = W3 m ρ c (Proc.devRef .tc (argRef k)) := keep_A2 _ k
    _ = W2 m ρ c (Proc.devRef .tc (argRef k)) := keep_A1 _ k
    _ = W1 m ρ c (Proc.devRef .tc (argRef k)) := W2_of_ne m ρ c (argRef k) (by revert k; decide)
    _ = W0 m ρ c (Proc.devRef .tc (argRef k)) := keep_A0 _ k
    _ = m ((c : Thread nD τ).loc (argRef k)) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the stretch allocates a buffer. -/
theorem fresh_A0 : (main_part0_ops0 : List (HloOp τ sig (Elt F))).Forall fun op => op.fresh = ∅ := by
  simp only [List.Forall]; repeat' constructor
set_option maxHeartbeats 4000000 in
/-- No operation of the stretch allocates a buffer. -/
theorem fresh_A1 : (main_part0_ops1 : List (HloOp τ sig (Elt F))).Forall fun op => op.fresh = ∅ := by
  simp only [List.Forall]; repeat' constructor
set_option maxHeartbeats 4000000 in
/-- No operation of the stretch allocates a buffer. -/
theorem fresh_A2 : (main_part0_ops2 : List (HloOp τ sig (Elt F))).Forall fun op => op.fresh = ∅ := by
  simp only [List.Forall]; repeat' constructor
set_option maxHeartbeats 4000000 in
/-- No operation of the stretch allocates a buffer. -/
theorem fresh_A3 : (main_part0_ops3 : List (HloOp τ sig (Elt F))).Forall fun op => op.fresh = ∅ := by
  simp only [List.Forall]; repeat' constructor
set_option maxHeartbeats 4000000 in
/-- No operation of the stretch allocates a buffer. -/
theorem fresh_B0 : (main_part1_ops0 : List (HloOp τ sig (Elt F))).Forall fun op => op.fresh = ∅ := by
  simp only [List.Forall]; repeat' constructor
set_option maxHeartbeats 4000000 in
/-- No operation of the stretch allocates a buffer. -/
theorem fresh_B1 : (main_part1_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the return's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at `W1`, left with them at `W2`. Its arrays
    are split out of the unscoped buffers and put back at what the pipeline leaves; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`. Its arrays
    are split out of the unscoped buffers and put back at what the pipeline leaves; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg main_part0_ops0 main_part0_ops0_sub fresh_A0 (W0 m ρ)),
    .region (reg0 m ρ),
    .host (hseg main_part0_ops1 main_part0_ops1_sub fresh_A1 (W2 m ρ)),
    .host (hseg main_part0_ops2 main_part0_ops2_sub fresh_A2 (W3 m ρ)),
    .host (hseg main_part0_ops3 main_part0_ops3_sub fresh_A3 (W4 m ρ)),
    .host (hseg main_part1_ops0 main_part1_ops0_sub fresh_B0 (W5 m ρ)),
    .region (reg1 m ρ),
    .host (hseg main_part1_ops1 main_part1_ops1_sub fresh_B1 (W7 m ρ)) ]

set_option maxHeartbeats 4000000 in
/-- The program is the run of the segments. -/
theorem main_run (c : Dev nD) : main (F := F) c = Pipeline.Seg.run (segs m ρ) := (main_chain_windows c).trans (by chain_rfl)

set_option backward.isDefEq.respectTransparency.types false in
set_option maxHeartbeats 4000000 in
/-- THE RUN: from any memory with zero counters every weakly fair execution of the program on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after main_part1_ops1 (W7 m ρ c)) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: the program runs, and its eleven argument arrays end as launched. -/
theorem frame_args : θ_run defs (onTc (τ := τ) (main (F := F))) ⟨m, fun _ => 0, ρ⟩ (fun r => ∀ c : Dev nD, ∀ k : Fin 11,
      r.2.mem ((c.tc : Thread nD τ).loc (argRef k)) = m ((c.tc : Thread nD τ).loc (argRef k))) :=
  (θ_run defs _ _).mono (fun _ h c k => (h c _ (mem_uc (argRef k) (by revert k; decide))).trans (W8_arg m ρ c k)) (run_all m ρ)

end Cert.Kernel.Fr

end
-- ==== Proof.KI.Region0.lean ====
/-
  Region 0 of the program (the two-layer input transform), at any contents V of the core's buffers when the region is entered.
  A grid point t sees block t of the row-tiled operand (window 0), the whole of the four weight and bias operands
  (windows 1 to 4: their block index never moves, so they are fetched once and stay), and writes block t of the result
  (window 5). The body reads the five input buffers whole and stores the result buffer whole, so after the body the
  result buffer holds the body's one payload of the five blocks; the inputs' buffers are left as they were.
-/
import proofs.«142224_j10273561772519_1_alg».proof.Proof.Gen.KernelIdeal.Launch
import proofs.«142224_j10273561772519_1_alg».proof.Proof.Gen.KernelIdeal.Skeleton
import proofs.«142224_j10273561772519_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or kept from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or kept from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or kept from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or kept from an earlier point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or kept from an earlier point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x512 := Rect.unit (s := S2000x512) ![0, 0] S2000x512.size inb_S2000x512_S2000x512_0_0
abbrev r0_1 : Rect S512x128 := Rect.unit (s := S512x128) ![0, 0] S512x128.size inb_S512x128_S512x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S1x128 := Rect.unit (s := S1x128) ![0, 0] S1x128.size inb_S1x128_S1x128_0_0
abbrev r0_5 : Rect S2000x128 := Rect.unit (s := S2000x128) ![0, 0] S2000x128.size inb_S2000x128_S2000x128_0_0

/-- The result buffer after the body: its one store, of the payload of the five input buffers read whole. -/
def out0_5 (x0 : Vec F S2000x512 .bf16) (x1 : Vec F S512x128 .bf16) (x2 : Vec F S1x128 .f32) (x3 : Vec F S128x128 .bf16) (x4 : Vec F S1x128 .f32) : Vec F S2000x128 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S2000x128 .f32) (y : S2000x128.Idx) :
    ∃ pc ∈ ([⟨r0_5, p0⟩] : List (View.Piece (Elt F) S2000x128 .f32)), y ∈ pc.1.set :=
  View.cover_of_tiled [⟨r0_5, p0⟩] S2000x128.size (by rfl) y

set_option maxHeartbeats 4000000 in
/-- The body on whole buffers, the inputs' at contents x0 … x4 and the result's at anything, runs to the continuation
    with the inputs' as they were and the result's at `out0_5` of them. -/
theorem sound_kernel0 (c : Dev nD) (E : Set ℕ) (i : grid0.Coords) (arg1 : Memref sig .tc .vmem S2000x512 .bf16) (harg1 : arg1.IsWhole) (arg2 : Memref sig .tc .vmem S512x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S2000x128 .f32) (harg6 : arg6.IsWhole)
    (x0 : Vec F S2000x512 .bf16) (x1 : Vec F S512x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core c: the arrays as the region finds them; after the body each input's buffer at
    its block and the result's at `out0_5` of the blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  Region 1 of the program (the output head), at any contents V of the core's buffers when the region is entered.
  A grid point t sees block t of the row-tiled operand (window 0), the whole of the four weight and bias operands
  (windows 1 to 4: their block index never moves, so they are fetched once and stay), and writes block t of the result
  (window 5). The body reads the five input buffers whole and stores the result buffer whole, so after the body the
  result buffer holds the body's one payload of the five blocks; the inputs' buffers are left as they were.
-/
import proofs.«142224_j10273561772519_1_alg».proof.Proof.Gen.KernelIdeal.Launch
import proofs.«142224_j10273561772519_1_alg».proof.Proof.Gen.KernelIdeal.Skeleton
import proofs.«142224_j10273561772519_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or kept from an earlier point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or kept from an earlier point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or kept from an earlier point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or kept from an earlier point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or kept from an earlier point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x384 := Rect.unit (s := S2000x384) ![0, 0] S2000x384.size inb_S2000x384_S2000x384_0_0
abbrev r1_1 : Rect S384x128 := Rect.unit (s := S384x128) ![0, 0] S384x128.size inb_S384x128_S384x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S2000x128 := Rect.unit (s := S2000x128) ![0, 0] S2000x128.size inb_S2000x128_S2000x128_0_0

/-- The result buffer after the body: its one store, of the payload of the five input buffers read whole. -/
def out1_5 (x0 : Vec F S2000x384 .bf16) (x1 : Vec F S384x128 .bf16) (x2 : Vec F S1x128 .f32) (x3 : Vec F S128x128 .bf16) (x4 : Vec F S1x128 .f32) : Vec F S2000x128 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S2000x128 .f32) (y : S2000x128.Idx) :
    ∃ pc ∈ ([⟨r1_5, p0⟩] : List (View.Piece (Elt F) S2000x128 .f32)), y ∈ pc.1.set :=
  View.cover_of_tiled [⟨r1_5, p0⟩] S2000x128.size (by rfl) y

set_option maxHeartbeats 4000000 in
/-- The body on whole buffers, the inputs' at contents x0 … x4 and the result's at anything, runs to the continuation
    with the inputs' as they were and the result's at `out1_5` of them. -/
theorem sound_kernel1 (c : Dev nD) (E : Set ℕ) (i : grid1.Coords) (arg1 : Memref sig .tc .vmem S2000x384 .bf16) (harg1 : arg1.IsWhole) (arg2 : Memref sig .tc .vmem S384x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S2000x128 .f32) (harg6 : arg6.IsWhole)
    (x0 : Vec F S2000x384 .bf16) (x1 : Vec F S384x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__head_kernel i arg1 harg1 arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core c: the arrays as the region finds them; after the body each input's buffer at
    its block and the result's at `out1_5` of the blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The run of the whole program: its two regions among five stretches of host operations (the stretch between the regions
  cut in three: the degree count, the clamp, and the two Laplacian steps with the filter combinations, the last cut once more
  where the printed program is cut), from the launch to the return.
  The core's buffer contents at every boundary are a fold from the launch memory: a host stretch applies its operations,
  a region leaves its arrays at what its write-backs leave and every other buffer alone. No stretch and no region writes an
  argument array, so the fold read at an argument walks back to the launch memory. The run ends with every unscoped buffer
  at the last boundary's contents: the frame claim reads the arguments there, a value claim reads the result there.
-/
import proofs.«142224_j10273561772519_1_alg».proof.Proof.KI.Region0
import proofs.«142224_j10273561772519_1_alg».proof.Proof.KI.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the casts and reshapes of the first region's operands (region 0's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- At region 0's exit: its arrays at what the pipeline leaves (an input as entered, the result's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the degree count, -/
abbrev W3 : Dev nD → Valuation τ sig (Elt F) := fun c => StableHlo.after main_part0_ops1 (W2 m ρ c)
/-- the clamp, -/
abbrev W4 : Dev nD → Valuation τ sig (Elt F) := fun c => StableHlo.after main_part0_ops2 (W3 m ρ c)
/-- the Laplacian steps and the first filter's beginning, -/
abbrev W5 : Dev nD → Valuation τ sig (Elt F) := fun c => StableHlo.after main_part0_ops3 (W4 m ρ c)
/-- and the rest of the filters, the join and the padded head weights (region 1's entry). -/
abbrev W6 : Dev nD → Valuation τ sig (Elt F) := fun c => StableHlo.after main_part1_ops0 (W5 m ρ c)
abbrev V6 : (c : Dev nD) → (b : Ref sig .tc) → Buf (Elt F) ((c : Thread nD τ).loc b) := fun c b => W6 m ρ c b

/-- At region 1's exit: its arrays at what the pipeline leaves (an input as entered, the result's write-backs folded),
    every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the final slice: the contents at the return. -/
abbrev W8 : Dev nD → Valuation τ sig (Elt F) := fun c => StableHlo.after main_part1_ops1 (W7 m ρ c)

/-! ## No stretch writes an argument array -/

/-- The eleven argument arrays. -/
abbrev argRef : Fin 11 → Ref sig .tc :=
  ![main_arg0, main_arg1, main_arg2, main_arg3, main_arg4, main_arg5, main_arg6, main_arg7, main_arg8, main_arg9, main_arg10]

set_option maxHeartbeats 4000000 in
theorem keep_A0 (W : Valuation τ sig (Elt F)) (k : Fin 11) :
    StableHlo.after (main_part0_ops0 (F := F)) W (Proc.devRef .tc (argRef k)) = W (Proc.devRef .tc (argRef k)) :=
  StableHlo.after_of_forall_not_mem (b := Proc.devRef .tc (argRef k)) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_A1 (W : Valuation τ sig (Elt F)) (k : Fin 11) :
    StableHlo.after (main_part0_ops1 (F := F)) W (Proc.devRef .tc (argRef k)) = W (Proc.devRef .tc (argRef k)) :=
  StableHlo.after_of_forall_not_mem (b := Proc.devRef .tc (argRef k)) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_A2 (W : Valuation τ sig (Elt F)) (k : Fin 11) :
    StableHlo.after (main_part0_ops2 (F := F)) W (Proc.devRef .tc (argRef k)) = W (Proc.devRef .tc (argRef k)) :=
  StableHlo.after_of_forall_not_mem (b := Proc.devRef .tc (argRef k)) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_A3 (W : Valuation τ sig (Elt F)) (k : Fin 11) :
    StableHlo.after (main_part0_ops3 (F := F)) W (Proc.devRef .tc (argRef k)) = W (Proc.devRef .tc (argRef k)) :=
  StableHlo.after_of_forall_not_mem (b := Proc.devRef .tc (argRef k)) _ _ (List.forall_iff_forall_mem.mp (by
    simp only [main_part0_ops3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_B0 (W : Valuation τ sig (Elt F)) (k : Fin 11) :
    StableHlo.after (main_part1_ops0 (F := F)) W (Proc.devRef .tc (argRef k)) = W (Proc.devRef .tc (argRef k)) :=
  StableHlo.after_of_forall_not_mem (b := Proc.devRef .tc (argRef k)) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))
set_option maxHeartbeats 4000000 in
theorem keep_B1 (W : Valuation τ sig (Elt F)) (k : Fin 11) :
    StableHlo.after (main_part1_ops1 (F := F)) W (Proc.devRef .tc (argRef k)) = W (Proc.devRef .tc (argRef k)) :=
  StableHlo.after_of_forall_not_mem (b := Proc.devRef .tc (argRef k)) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by revert k; decide)))

/-- At the return every argument array holds what it held at launch. -/
theorem W8_arg (c : Dev nD) (k : Fin 11) : W8 m ρ c (Proc.devRef .tc (argRef k)) = m ((c : Thread nD τ).loc (argRef k)) :=
  calc W8 m ρ c (Proc.devRef .tc (argRef k))
    _ = W7 m ρ c (Proc.devRef .tc (argRef k)) := keep_B1 _ k
    _ = W6 m ρ c (Proc.devRef .tc (argRef k)) := W7_of_ne m ρ c (argRef k) (by revert k; decide)
    _ = W5 m ρ c (Proc.devRef .tc (argRef k)) := keep_B0 _ k
    _ = W4 m ρ c (Proc.devRef .tc (argRef k)) := keep_A3 _ k
    _ = W3 m ρ c (Proc.devRef .tc (argRef k)) := keep_A2 _ k
    _ = W2 m ρ c (Proc.devRef .tc (argRef k)) := keep_A1 _ k
    _ = W1 m ρ c (Proc.devRef .tc (argRef k)) := W2_of_ne m ρ c (argRef k) (by revert k; decide)
    _ = W0 m ρ c (Proc.devRef .tc (argRef k)) := keep_A0 _ k
    _ = m ((c : Thread nD τ).loc (argRef k)) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the stretch allocates a buffer. -/
theorem fresh_A0 : (main_part0_ops0 : List (HloOp τ sig (Elt F))).Forall fun op => op.fresh = ∅ := by
  simp only [List.Forall]; repeat' constructor
set_option maxHeartbeats 4000000 in
/-- No operation of the stretch allocates a buffer. -/
theorem fresh_A1 : (main_part0_ops1 : List (HloOp τ sig (Elt F))).Forall fun op => op.fresh = ∅ := by
  simp only [List.Forall]; repeat' constructor
set_option maxHeartbeats 4000000 in
/-- No operation of the stretch allocates a buffer. -/
theorem fresh_A2 : (main_part0_ops2 : List (HloOp τ sig (Elt F))).Forall fun op => op.fresh = ∅ := by
  simp only [List.Forall]; repeat' constructor
set_option maxHeartbeats 4000000 in
/-- No operation of the stretch allocates a buffer. -/
theorem fresh_A3 : (main_part0_ops3 : List (HloOp τ sig (Elt F))).Forall fun op => op.fresh = ∅ := by
  simp only [List.Forall]; repeat' constructor
set_option maxHeartbeats 4000000 in
/-- No operation of the stretch allocates a buffer. -/
theorem fresh_B0 : (main_part1_ops0 : List (HloOp τ sig (Elt F))).Forall fun op => op.fresh = ∅ := by
  simp only [List.Forall]; repeat' constructor
set_option maxHeartbeats 4000000 in
/-- No operation of the stretch allocates a buffer. -/
theorem fresh_B1 : (main_part1_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the return's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at `W1`, left with them at `W2`. Its arrays
    are split out of the unscoped buffers and put back at what the pipeline leaves; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`. Its arrays
    are split out of the unscoped buffers and put back at what the pipeline leaves; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg main_part0_ops0 main_part0_ops0_sub fresh_A0 (W0 m ρ)),
    .region (reg0 m ρ),
    .host (hseg main_part0_ops1 main_part0_ops1_sub fresh_A1 (W2 m ρ)),
    .host (hseg main_part0_ops2 main_part0_ops2_sub fresh_A2 (W3 m ρ)),
    .host (hseg main_part0_ops3 main_part0_ops3_sub fresh_A3 (W4 m ρ)),
    .host (hseg main_part1_ops0 main_part1_ops0_sub fresh_B0 (W5 m ρ)),
    .region (reg1 m ρ),
    .host (hseg main_part1_ops1 main_part1_ops1_sub fresh_B1 (W7 m ρ)) ]

set_option maxHeartbeats 4000000 in
/-- The program is the run of the segments. -/
theorem main_run (c : Dev nD) : main (F := F) c = Pipeline.Seg.run (segs m ρ) := (main_chain_windows c).trans (by chain_rfl)

set_option backward.isDefEq.respectTransparency.types false in
set_option maxHeartbeats 4000000 in
/-- THE RUN: from any memory with zero counters every weakly fair execution of the program on the TensorCores terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after main_part1_ops1 (W7 m ρ c)) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: the program runs, and its eleven argument arrays end as launched. -/
theorem frame_args : θ_run defs (onTc (τ := τ) (main (F := F))) ⟨m, fun _ => 0, ρ⟩ (fun r => ∀ c : Dev nD, ∀ k : Fin 11,
      r.2.mem ((c.tc : Thread nD τ).loc (argRef k)) = m ((c.tc : Thread nD τ).loc (argRef k))) :=
  (θ_run defs _ _).mono (fun _ h c k => (h c _ (mem_uc (argRef k) (by revert k; decide))).trans (W8_arg m ρ c k)) (run_all m ρ)

end Cert.KernelIdeal.Fr

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibDenseLayer.lean ====
/-
  A dense layer on a block of rows, on the extended reals.

  On one row a dense layer is  (h·W + b)_q = Σ_k h_k · W(k, q) + b_q  (`affine`), and the rectifier is the entrywise
  maximum with 0 (`relu`). A kernel body spells the layer on a block of R rows as a matrix product [R, K] × [K, N]
  accumulated into the f32 zero splat plus the bias row [1, N] laid along the R rows (`layerVec`), and the rectifier
  as the maximum with the splat of the f32 zero word (`reluVec`). At the ideal values entry (p, q) of the former is
  the affine image of row p at q (`layerVec_apply`) and an entry of the latter is the maximum with 0
  (`reluVec_apply`), for any R, K, N. `rowOf` reads a [1, N] bias row as the vector of its entries.
  Imports LibPlainMatmul.lean (the product read at an entry) and the library; nothing here mentions a program.
-/
import proofs.«142224_j10273561772519_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.DenseLayer

open Idealize.ShloMosaic Idealize.ShloMosaic.ValueIdx

/-- An affine layer on one row: `(h·W + b)_q = Σ_k h_k · W(k, q) + b_q`. -/
def affine {K N : ℕ} (h : Fin K → EReal) (W : (⟨2, ![K, N]⟩ : Shape).Idx → EReal) (b : Fin N → EReal) : Fin N → EReal :=
  fun q => (∑ k : Fin K, h k * W (ix2 k q)) + b q

/-- The rectifier, entry by entry. -/
def relu {N : ℕ} (v : Fin N → EReal) : Fin N → EReal := fun q => max (v q) 0

/-- A bias row [1, N] as the vector of its N entries. -/
def rowOf {N : ℕ} (b : (⟨2, ![1, N]⟩ : Shape).Idx → EReal) : Fin N → EReal := fun q => b (ix2 0 q)

/-- One layer on a block of R rows as a program spells it: the product into the zero splat, plus the bias row
    [1, N] laid along the R rows. -/
def layerVec {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) : FVec Ideal (⟨2, ![R, N]⟩ : Shape) .f32 :=
  addf (matmul (PlainMatmul.plain wf) none h w (constant (⟨2, ![R, N]⟩ : Shape) .f32 0x00000000#32))
    (broadcastTo (⟨2, ![R, N]⟩ : Shape) b hb)

/-- The rectifier on a vector: the maximum with the splat of the f32 zero word. -/
def reluVec {s : Shape} (v : FVec Ideal s .f32) : FVec Ideal s .f32 :=
  maximumf v (broadcast s (Scalar.ofBits (F := Ideal) .f32 0x00000000#32))

/-- Entry (p, q) of a layer: the affine image of row p, at q. -/
theorem layerVec_apply {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) (p : Fin R) (q : Fin N) :
    layerVec wf hb h w b (ix2 p q) = affine (fun k => h (ix2 p k)) w (rowOf b) q :=
  congrArg₂ (· + ·) (PlainMatmul.matmul_zero_apply wf none h w p q)
    (broadcastTo_apply b hb (ix2 p q) (ix2 0 q) fun a => by
      match a with
      | ⟨0, _⟩ => exact (if_pos rfl).symm
      | ⟨1, _⟩ =>
        show q.val = if N = 1 then 0 else q.val
        split
        · have := q.isLt; omega
        · rfl)

/-- An entry of the rectifier: the maximum with 0. -/
theorem reluVec_apply {s : Shape} (v : FVec Ideal s .f32) (i : s.Idx) : reluVec v i = max (v i) 0 := by
  show max (v i) (FloatOps.ofBits (F := Ideal) .f32 0x00000000#32) = _
  rw [Ideal.ofBits_def, Ideal.ofBits_zero_f32]

end Cert.DenseLayer

end
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.LibSetScatter.lean ====
/-
  A scatter whose body keeps the update (`x.at[…].set(v)`), read at an element; and the window write at the origin.

  The host's scatter is a left fold over the update's elements: each element that lands inside the operand replaces the
  operand's element there, and one that lands outside is dropped. When at most one update lands on an element the order of
  the fold does not matter there: the element ends at that update's value, and an element no update lands on keeps the
  operand's value (`scatter_set_lands`, `scatter_set_untouched`). The second half is the case that pads an array: an
  `[n, d]` update written as ONE window at the origin of an `[N, D]` operand (both update axes window axes, a single start
  index read as zero). Element `(a, b)` of the update lands on element `(a, b)` of the operand, so the result is the update
  inside the window and the operand outside it. Nothing here mentions a program.
-/
import Idealize.ShloMosaic.PureOps.Ideal
import Idealize.ShloMosaic.Lib.ValueIdx
import proofs.«142224_j10273561772519_1_alg».proof.Proof.LibScatterRows

noncomputable section

namespace Cert.Lib.SetScatter

open Idealize.ShloMosaic Idealize.ShloMosaic.ValueIdx

/-! ## A fold of steps each of which rewrites one place -/

section Fold
variable {ι β α : Type}

/-- A place no step of the list lands on keeps its value. -/
theorem foldl_untouched (step : (ι → α) → β → ι → α) (g : β → Option ι) (i : ι)
    (hother : ∀ r j, g j ≠ some i → step r j i = r i) :
    ∀ (l : List β) (r : ι → α), (∀ j ∈ l, g j ≠ some i) → l.foldl step r i = r i
  | [], _, _ => rfl
  | j :: l, r, h => by
    rw [List.foldl_cons, foldl_untouched step g i hother l (step r j) (fun j' hj' => h j' (List.mem_cons_of_mem _ hj'))]
    exact hother r j (h j (List.mem_cons.mpr (Or.inl rfl)))

/-- A place some step of the list lands on, all the steps that land on it writing one value, ends at that value. -/
theorem foldl_lands (step : (ι → α) → β → ι → α) (g : β → Option ι) (upd : β → α) (i : ι)
    (hland : ∀ r j, g j = some i → step r j i = upd j)
    (hother : ∀ r j, g j ≠ some i → step r j i = r i) :
    ∀ (l : List β) (r : ι → α) (j0 : β), j0 ∈ l → g j0 = some i → (∀ j ∈ l, g j = some i → upd j = upd j0) →
      l.foldl step r i = upd j0
  | [], _, _, h, _, _ => absurd h List.not_mem_nil
  | j :: l, r, j0, hmem, hj0, hsame => by
    rw [List.foldl_cons]
    by_cases hex : ∃ j1 ∈ l, g j1 = some i
    · obtain ⟨j1, hj1, hg1⟩ := hex
      have e1 : upd j1 = upd j0 := hsame j1 (List.mem_cons_of_mem _ hj1) hg1
      rw [← e1]
      exact foldl_lands step g upd i hland hother l (step r j) j1 hj1 hg1
        (fun j' hj' hg' => (hsame j' (List.mem_cons_of_mem _ hj') hg').trans e1.symm)
    · have hnone : ∀ j' ∈ l, g j' ≠ some i := fun j' hj' hg' => hex ⟨j', hj', hg'⟩
      rw [foldl_untouched step g i hother l (step r j) hnone]
      have hj : j0 = j := by
        rcases List.mem_cons.mp hmem with h | h
        · exact h
        · exact absurd hj0 (hnone j0 h)
      rw [hj] at hj0 ⊢
      exact hland r j hj0

end Fold

/-! ## The scatter that keeps the update -/

section Scatter
variable {s si u : Shape} {α : Type} {w : Nat}

/-- One step of the fold: the update at row-major position `n` replaces the element it lands on. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (setStep d idx upd) x := rfl

theorem setStep_lands (d : ScatterDims s si u) (idx : IVec si w) (upd : u.Idx → α) (i : s.Idx) (r : s.Idx → α)
    (n : Fin u.numel) (h : d.resultIdx? (u.rowMajor.symm n) idx = some i) :
    setStep d idx upd r n i = upd (u.rowMajor.symm n) := by
  unfold setStep
  rw [h]
  exact if_pos rfl

theorem setStep_other (d : ScatterDims s si u) (idx : IVec si w) (upd : u.Idx → α) (i : s.Idx) (r : s.Idx → α)
    (n : Fin u.numel) (h : d.resultIdx? (u.rowMajor.symm n) idx ≠ some i) :
    setStep d idx upd r n i = r i := by
  unfold setStep
  cases h' : d.resultIdx? (u.rowMajor.symm n) idx with
  | none => rfl
  | some i' =>
    have hne : i ≠ i' := fun e => h (by rw [h', e])
    exact if_neg hne

/-- An element exactly one update lands on ends at that update. -/
theorem scatter_set_lands (d : ScatterDims s si u) (x : s.Idx → α) (idx : IVec si w) (upd : u.Idx → α)
    (i : s.Idx) (j0 : u.Idx) (h0 : d.resultIdx? j0 idx = some i) (huniq : ∀ j, d.resultIdx? j idx = some i → j = j0) :
    Host.scatter d (fun _ b => b) x idx upd i = upd j0 := by
  rw [scatter_eq_foldl]
  have key := foldl_lands (setStep d idx upd) (fun n => d.resultIdx? (u.rowMajor.symm n) idx)
    (fun n => upd (u.rowMajor.symm n)) i
    (fun r n h => setStep_lands d idx upd i r n h) (fun r n h => setStep_other d idx upd i r n h)
    (List.finRange u.numel) x (u.rowMajor j0) (List.mem_finRange _)
    (by show d.resultIdx? (u.rowMajor.symm (u.rowMajor j0)) idx = some i; rw [Equiv.symm_apply_apply]; exact h0)
    (fun n _ hn => by
      show upd (u.rowMajor.symm n) = upd (u.rowMajor.symm (u.rowMajor j0))
      rw [Equiv.symm_apply_apply, huniq _ hn])
  rw [key]
  show upd (u.rowMajor.symm (u.rowMajor j0)) = upd j0
  rw [Equiv.symm_apply_apply]

/-- An element no update lands on keeps the operand's value. -/
theorem scatter_set_untouched (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_untouched (setStep d idx upd) (fun n => d.resultIdx? (u.rowMajor.symm n) idx) i
    (fun r n h => setStep_other d idx upd i r n h) (List.finRange u.numel) x (fun n _ => hnone _)

end Scatter

/-! ## One window written at the origin of a matrix -/

section Window
variable {N D n d w : Nat} {α : Type} (sd : Fin 2)

/-- The dimension numbers of an `[n, d]` window written into an `[N, D]` matrix at ONE start index (a vector of one
    entry, naming operand axis `sd`): both update axes are window axes. -/
abbrev windowDims
    (wf : ScatterDims.WF (⟨2, ![N, D]⟩ : Shape) ⟨1, ![1]⟩ ⟨2, ![n, d]⟩ [0, 1] [] [sd] 0) :
    ScatterDims (⟨2, ![N, D]⟩ : Shape) ⟨1, ![1]⟩ ⟨2, ![n, d]⟩ :=
  ⟨[0, 1], [], [sd], 0, wf⟩

variable (wf : ScatterDims.WF (⟨2, ![N, D]⟩ : Shape) ⟨1, ![1]⟩ ⟨2, ![n, d]⟩ [0, 1] [] [sd] 0)

/-- With the start index read as zero the window starts at the origin on every axis. -/
theorem start_zero (idx : IVec ⟨1, ![1]⟩ w) (hidx : ∀ k, (idx k).toInt = 0) (j : (⟨2, ![n, d]⟩ : Shape).Idx) (a : Fin 2) :
    (windowDims sd wf).start j idx a = 0 := by
  unfold ScatterDims.start
  split
  · exact hidx _
  · rfl

/-- On the row axis the window coordinate of update `(a, b)` is `a`. -/
theorem window_row (j : (⟨2, ![n, d]⟩ : Shape).Idx) : (windowDims sd wf).window j 0 = (j 0).val := by
  unfold ScatterDims.window
  refine (dif_pos (show (0 : Fin 2) ∈ (List.finRange 2).filter (· ∉ ([] : List (Fin 2))) by decide)).trans ?_
  rfl

/-- On the column axis the window coordinate of update `(a, b)` is `b`. -/
theorem window_col (j : (⟨2, ![n, d]⟩ : Shape).Idx) : (windowDims sd wf).window j 1 = (j 1).val := by
  unfold ScatterDims.window
  refine (dif_pos (show (1 : Fin 2) ∈ (List.finRange 2).filter (· ∉ ([] : List (Fin 2))) by decide)).trans ?_
  rfl

/-- Update `(a, b)` lands on operand element `(a, b)`. -/
theorem lands_iff (idx : IVec ⟨1, ![1]⟩ w) (hidx : ∀ k, (idx k).toInt = 0) (j : (⟨2, ![n, d]⟩ : Shape).Idx)
    (i : (⟨2, ![N, D]⟩ : Shape).Idx) :
    (windowDims sd wf).resultIdx? j idx = some i ↔ (j 0).val = (i 0).val ∧ (j 1).val = (i 1).val := by
  rw [ScatterRows.resultIdx_eq_some_iff]
  constructor
  · intro h
    have h0 := h 0
    have h1 := h 1
    rw [start_zero sd wf idx hidx, window_row] at h0
    rw [start_zero sd wf idx hidx, window_col] at h1
    exact ⟨by omega, by omega⟩
  · rintro ⟨h0, h1⟩ a
    match a with
    | ⟨0, _⟩ =>
      show (windowDims sd wf).start j idx 0 + (((windowDims sd wf).window j 0 : ℕ) : ℤ) = ((i 0).val : ℤ)
      rw [start_zero sd wf idx hidx, window_row]
      omega
    | ⟨1, _⟩ =>
      show (windowDims sd wf).start j idx 1 + (((windowDims sd wf).window j 1 : ℕ) : ℤ) = ((i 1).val : ℤ)
      rw [start_zero sd wf idx hidx, window_col]
      omega

/-- Inside the window the result is the update. -/
theorem window_write_inside (x : (⟨2, ![N, D]⟩ : Shape).Idx → α) (idx : IVec ⟨1, ![1]⟩ w)
    (hidx : ∀ k, (idx k).toInt = 0) (upd : (⟨2, ![n, d]⟩ : Shape).Idx → α) (P : Fin N) (Q : Fin D)
    (hP : P.val < n) (hQ : Q.val < d) :
    Host.scatter (windowDims sd wf) (fun _ b => b) x idx upd (ix2 P Q) = upd (ix2 ⟨P.val, hP⟩ ⟨Q.val, hQ⟩) := by
  refine scatter_set_lands _ x idx upd (ix2 P Q) (ix2 ⟨P.val, hP⟩ ⟨Q.val, hQ⟩)
    ((lands_iff sd wf idx hidx _ _).mpr ⟨rfl, rfl⟩) (fun j hj => ?_)
  obtain ⟨h0, h1⟩ := (lands_iff sd wf idx hidx _ _).mp hj
  have e0 : j 0 = ⟨P.val, hP⟩ := Fin.ext h0
  have e1 : j 1 = ⟨Q.val, hQ⟩ := Fin.ext h1
  funext a
  match a with
  | ⟨0, _⟩ => exact e0
  | ⟨1, _⟩ => exact e1

/-- Outside the window the result is the operand. -/
theorem window_write_outside (x : (⟨2, ![N, D]⟩ : Shape).Idx → α) (idx : IVec ⟨1, ![1]⟩ w)
    (hidx : ∀ k, (idx k).toInt = 0) (upd : (⟨2, ![n, d]⟩ : Shape).Idx → α) (P : Fin N) (Q : Fin D)
    (hout : n ≤ P.val ∨ d ≤ Q.val) :
    Host.scatter (windowDims sd wf) (fun _ b => b) x idx upd (ix2 P Q) = x (ix2 P Q) := by
  refine scatter_set_untouched _ x idx upd (ix2 P Q) (fun j hj => ?_)
  obtain ⟨h0, h1⟩ := (lands_iff sd wf idx hidx _ _).mp hj
  have l0 := idx2_lt0 j
  have l1 := idx2_lt1 j
  have h0' : (j 0).val = P.val := h0
  have h1' : (j 1).val = Q.val := h1
  omega

end Window

end Cert.Lib.SetScatter

end
-- ==== Proof.LibVecWindow.lean ====
/-
  One window written at the origin of a vector.

  An `[n]` update written as ONE window at the origin of an `[N]` operand by a scatter whose body keeps the update
  (`x.at[:n].set(v)`): the update's one axis is a window axis, and a single start index, read as zero, names the
  operand's one axis. Element `a` of the update lands on element `a` of the operand and on no other, so the result is
  the update below `n` and the operand from `n` on (`vec_write_inside`, `vec_write_outside`). This is the one-axis
  companion of the window written at the origin of a matrix; it rests on the same two facts about a scatter that keeps
  the update (an element exactly one update lands on ends at that update, an element no update lands on keeps the
  operand's value) and on the landing index read as equations between integers. Every statement is generic in the
  extents, the index width and the element type, and holds for any witness of the dimension numbers' conditions.
  Nothing here mentions a program.
-/
import Idealize.ShloMosaic.PureOps.Ideal
import Idealize.ShloMosaic.Lib.ValueIdx
import proofs.«142224_j10273561772519_1_alg».proof.Proof.LibScatterRows
import proofs.«142224_j10273561772519_1_alg».proof.Proof.LibSetScatter

noncomputable section

namespace Cert.Lib.VecWindow

open Idealize.ShloMosaic Idealize.ShloMosaic.ValueIdx Cert.Lib.SetScatter

section Window
variable {N n w : Nat} {α : Type}

/-- The dimension numbers of an `[n]` window written into an `[N]` vector at ONE start index (a vector of one entry,
    naming the operand's one axis): the update's axis is a window axis, and no operand axis is inserted. -/
abbrev vecWindowDims
    (wf : ScatterDims.WF (⟨1, ![N]⟩ : Shape) ⟨1, ![1]⟩ ⟨1, ![n]⟩ [0] [] [0] 0) :
    ScatterDims (⟨1, ![N]⟩ : Shape) ⟨1, ![1]⟩ ⟨1, ![n]⟩ :=
  ⟨[0], [], [0], 0, wf⟩

variable (wf : ScatterDims.WF (⟨1, ![N]⟩ : Shape) ⟨1, ![1]⟩ ⟨1, ![n]⟩ [0] [] [0] 0)

/-- With the start index read as zero the window starts at the origin. -/
theorem start_zero (idx : IVec ⟨1, ![1]⟩ w) (hidx : ∀ k, (idx k).toInt = 0) (j : (⟨1, ![n]⟩ : Shape).Idx) (a : Fin 1) :
    (vecWindowDims wf).start j idx a = 0 := by
  unfold ScatterDims.start
  split
  · exact hidx _
  · rfl

/-- The window coordinate of update `a` on the operand's axis is `a`. -/
theorem window_coord (j : (⟨1, ![n]⟩ : Shape).Idx) : (vecWindowDims wf).window j 0 = (j 0).val := by
  unfold ScatterDims.window
  refine (dif_pos (show (0 : Fin 1) ∈ (List.finRange 1).filter (· ∉ ([] : List (Fin 1))) by decide)).trans ?_
  rfl

/-- Update `a` lands on operand element `a`. -/
theorem lands_iff (idx : IVec ⟨1, ![1]⟩ w) (hidx : ∀ k, (idx k).toInt = 0) (j : (⟨1, ![n]⟩ : Shape).Idx)
    (i : (⟨1, ![N]⟩ : Shape).Idx) :
    (vecWindowDims wf).resultIdx? j idx = some i ↔ (j 0).val = (i 0).val := by
  rw [ScatterRows.resultIdx_eq_some_iff]
  constructor
  · intro h
    have h0 := h 0
    rw [start_zero wf idx hidx, window_coord] at h0
    omega
  · intro h0 a
    match a with
    | ⟨0, _⟩ =>
      show (vecWindowDims wf).start j idx 0 + (((vecWindowDims wf).window j 0 : ℕ) : ℤ) = ((i 0).val : ℤ)
      rw [start_zero wf idx hidx, window_coord]
      omega

/-- Below the window's length the result is the update. -/
theorem vec_write_inside (x : (⟨1, ![N]⟩ : Shape).Idx → α) (idx : IVec ⟨1, ![1]⟩ w)
    (hidx : ∀ k, (idx k).toInt = 0) (upd : (⟨1, ![n]⟩ : Shape).Idx → α) (P : Fin N) (hP : P.val < n) :
    Host.scatter (vecWindowDims wf) (fun _ b => b) x idx upd (ix1 P) = upd (ix1 ⟨P.val, hP⟩) := by
  refine scatter_set_lands _ x idx upd (ix1 P) (ix1 ⟨P.val, hP⟩)
    ((lands_iff wf idx hidx _ _).mpr rfl) (fun j hj => ?_)
  have h0 := (lands_iff wf idx hidx _ _).mp hj
  have e0 : j 0 = ⟨P.val, hP⟩ := Fin.ext h0
  funext a
  match a with
  | ⟨0, _⟩ => exact e0

/-- From the window's length on the result is the operand. -/
theorem vec_write_outside (x : (⟨1, ![N]⟩ : Shape).Idx → α) (idx : IVec ⟨1, ![1]⟩ w)
    (hidx : ∀ k, (idx k).toInt = 0) (upd : (⟨1, ![n]⟩ : Shape).Idx → α) (P : Fin N) (hout : n ≤ P.val) :
    Host.scatter (vecWindowDims wf) (fun _ b => b) x idx upd (ix1 P) = x (ix1 P) := by
  refine scatter_set_untouched _ x idx upd (ix1 P) (fun j hj => ?_)
  have h0 := (lands_iff wf idx hidx _ _).mp hj
  have l0 : (j 0).val < n := (j 0).isLt
  have h0' : (j 0).val = P.val := h0
  omega

end Window

end Cert.Lib.VecWindow

end
-- ==== Proof.KI.Payload.lean ====
/-
  The two kernel bodies read at an entry, on the extended reals.

  Each body is two dense layers on a block of 2000 rows. The first kernel computes, row by row,
      relu (relu (x·W1 + b1)·W2 + b2),
  the second
      relu (f·Wm1 + bm1)·Wm2 + bm2      (no rectifier after the second layer).
  In the bodies every product is a matrix product accumulated into the zero splat, every bias a [1, 128] row laid
  along the 2000 rows, every rectifier the maximum with the zero splat; the value between the two layers is
  narrowed to a 16-bit format, and a shape cast to the same shape precedes each operand. On the extended reals a
  change of format is the identity and so is a cast to the same shape, so each body is, as a whole vector, the
  block form of its two layers (`k0_pay1_eq`, `k1_pay1_eq`), and entry (p, q) of it is the two-layer formula on
  row p at q (`k0_pay1_apply`, `k1_pay1_apply`).

  The second kernel's last weight matrix [128, 2] and bias [2] reach it padded with zeros to [128, 128] and [128]: each
  is written at the origin of a zero array by a scatter that keeps the update. Read at an entry the padded array is the
  given one inside the window and 0 outside it (`wm2_pad_apply`, `wm2_pad_zero`, `bm2_pad_apply`, `bm2_pad_zero`).
-/
import proofs.«142224_j10273561772519_1_alg».proof.Proof.Gen.KernelIdeal.Skeleton
import proofs.«142224_j10273561772519_1_alg».proof.Proof.LibDenseLayer
import proofs.«142224_j10273561772519_1_alg».proof.Proof.LibSetScatter
import proofs.«142224_j10273561772519_1_alg».proof.Proof.LibVecWindow

noncomputable section

namespace Cert.KernelIdeal.Pay

open Cert.KernelIdeal Cert.KernelIdeal.Gen Idealize.ShloMosaic Idealize.ShloMosaic.ValueIdx Cert.DenseLayer Cert.Lib.SetScatter Cert.Lib.VecWindow

/-! ## The first kernel: two layers, each followed by the rectifier -/

/-- The first body as a whole vector: the rectified second layer of the rectified first layer. The casts to the
    same shape drop out, and the narrowing between the layers is the identity on the extended reals. -/
theorem k0_pay1_eq (x0 : Vec Ideal S2000x512 .bf16) (w1 : Vec Ideal S512x128 .bf16) (b1 : Vec Ideal S1x128 .f32)
    (w2 : Vec Ideal S128x128 .bf16) (b2 : Vec Ideal S1x128 .f32) :
    k0_pay1 (F := Ideal) x0 w1 b1 w2 b2
      = reluVec (layerVec dot_S2000x128_S128x128_S2000x128_1_0_0_1_n_n_wf broadcasts_S1x128_S2000x128
          (reluVec (layerVec dot_S2000x512_S512x128_S2000x128_1_0_0_1_n_n_wf broadcasts_S1x128_S2000x128 x0 w1 b1))
          w2 b2) := by
  unfold k0_pay1
  simp only [shapeCast_self]
  rfl

/-- Entry (p, q) of the first body: relu (relu (x_p·W1 + b1)·W2 + b2) at q. -/
theorem k0_pay1_apply (x0 : Vec Ideal S2000x512 .bf16) (w1 : Vec Ideal S512x128 .bf16) (b1 : Vec Ideal S1x128 .f32)
    (w2 : Vec Ideal S128x128 .bf16) (b2 : Vec Ideal S1x128 .f32) (p : Fin 2000) (q : Fin 128) :
    k0_pay1 (F := Ideal) x0 w1 b1 w2 b2 (ix2 p q)
      = relu (affine (relu (affine (fun k => x0 (ix2 p k)) w1 (rowOf b1))) w2 (rowOf b2)) q := by
  -- row p of the rectified first layer is the rectified affine image of row p of x
  have inner : (fun k : Fin 128 =>
        reluVec (layerVec dot_S2000x512_S512x128_S2000x128_1_0_0_1_n_n_wf broadcasts_S1x128_S2000x128 x0 w1 b1) (ix2 p k))
      = relu (affine (fun k => x0 (ix2 p k)) w1 (rowOf b1)) :=
    funext fun k => (reluVec_apply _ _).trans
      (congrArg (fun t => max t 0)
        (layerVec_apply dot_S2000x512_S512x128_S2000x128_1_0_0_1_n_n_wf broadcasts_S1x128_S2000x128 x0 w1 b1 p k))
  refine (congrFun (k0_pay1_eq x0 w1 b1 w2 b2) (ix2 p q)).trans ?_
  refine (reluVec_apply _ _).trans ?_
  refine (congrArg (fun t => max t 0)
    (layerVec_apply dot_S2000x128_S128x128_S2000x128_1_0_0_1_n_n_wf broadcasts_S1x128_S2000x128 _ w2 b2 p q)).trans ?_
  exact congrArg (fun h => max (affine h w2 (rowOf b2) q) 0) inner

/-! ## The second kernel: a rectified layer, then a layer with no rectifier -/

/-- The second body as a whole vector: the second layer of the rectified first layer. -/
theorem k1_pay1_eq (x0 : Vec Ideal S2000x384 .bf16) (w1 : Vec Ideal S384x128 .bf16) (b1 : Vec Ideal S1x128 .f32)
    (w2 : Vec Ideal S128x128 .bf16) (b2 : Vec Ideal S1x128 .f32) :
    k1_pay1 (F := Ideal) x0 w1 b1 w2 b2
      = layerVec dot_S2000x128_S128x128_S2000x128_1_0_0_1_n_n_wf broadcasts_S1x128_S2000x128
          (reluVec (layerVec dot_S2000x384_S384x128_S2000x128_1_0_0_1_n_n_wf broadcasts_S1x128_S2000x128 x0 w1 b1))
          w2 b2 := by
  unfold k1_pay1
  simp only [shapeCast_self]
  rfl

/-- Entry (p, q) of the second body: relu (f_p·Wm1 + bm1)·Wm2 + bm2 at q. -/
theorem k1_pay1_apply (x0 : Vec Ideal S2000x384 .bf16) (w1 : Vec Ideal S384x128 .bf16) (b1 : Vec Ideal S1x128 .f32)
    (w2 : Vec Ideal S128x128 .bf16) (b2 : Vec Ideal S1x128 .f32) (p : Fin 2000) (q : Fin 128) :
    k1_pay1 (F := Ideal) x0 w1 b1 w2 b2 (ix2 p q)
      = affine (relu (affine (fun k => x0 (ix2 p k)) w1 (rowOf b1))) w2 (rowOf b2) q := by
  -- row p of the rectified first layer is the rectified affine image of row p of f
  have inner : (fun k : Fin 128 =>
        reluVec (layerVec dot_S2000x384_S384x128_S2000x128_1_0_0_1_n_n_wf broadcasts_S1x128_S2000x128 x0 w1 b1) (ix2 p k))
      = relu (affine (fun k => x0 (ix2 p k)) w1 (rowOf b1)) :=
    funext fun k => (reluVec_apply _ _).trans
      (congrArg (fun t => max t 0)
        (layerVec_apply dot_S2000x384_S384x128_S2000x128_1_0_0_1_n_n_wf broadcasts_S1x128_S2000x128 x0 w1 b1 p k))
  refine (congrFun (k1_pay1_eq x0 w1 b1 w2 b2) (ix2 p q)).trans ?_
  refine (layerVec_apply dot_S2000x128_S128x128_S2000x128_1_0_0_1_n_n_wf broadcasts_S1x128_S2000x128 _ w2 b2 p q).trans ?_
  exact congrArg (fun h => affine h w2 (rowOf b2) q) inner

/-! ## The head's second layer, padded with zeros on the host

The head's second weight matrix [128, 2] and bias [2] are written at the origin of a zero matrix [128, 128] and a zero
vector [128] by scatters that keep the update, each with one start index, the zero word. Inside the window the padded
array is the given one; outside it is zero. -/

/-- The one start index of both writes is the zero word. -/
theorem pad_idx_zero (k : S1.Idx) :
    ((broadcastInDim S1 ![] bcast_S_S1 (constantI S_ 32 0#32)) k).toInt = 0 := rfl

/-- The zero splat the weight matrix is written into reads 0 everywhere. -/
theorem zero_mat_apply (i : S128x128.Idx) :
    broadcastInDim S128x128 ![] bcast_S_S128x128 (constant (F := Ideal) S_ .f32 0x00000000#32) i = (0 : EReal) := by
  show FloatOps.ofBits (F := Ideal) .f32 0x00000000#32 = _
  rw [Ideal.ofBits_def, Ideal.ofBits_zero_f32]

/-- The zero splat the bias is written into reads 0 everywhere. -/
theorem zero_vec_apply (i : S128.Idx) :
    broadcastInDim S128 ![] bcast_S_S128 (constant (F := Ideal) S_ .f32 0x00000000#32) i = (0 : EReal) := by
  show FloatOps.ofBits (F := Ideal) .f32 0x00000000#32 = _
  rw [Ideal.ofBits_def, Ideal.ofBits_zero_f32]

/-- The padded weight matrix at a column below 2 is the given matrix. -/
theorem wm2_pad_apply (Wm2 : (⟨S128x2, .f32⟩ : BufTy).Contents (Elt Ideal)) (k : Fin 128) (q : Fin 2) :
    Host.scatter scatter_S128x128_S1_S128x2_01_n_1_0 (fun _ b => b)
        (broadcastInDim S128x128 ![] bcast_S_S128x128 (constant (F := Ideal) S_ .f32 0x00000000#32))
        (broadcastInDim S1 ![] bcast_S_S1 (constantI S_ 32 0#32)) Wm2 (ix2 k ⟨q.val, by omega⟩)
      = Wm2 (ix2 k q) :=
  window_write_inside 1 scatter_S128x128_S1_S128x2_01_n_1_0_wf _ _ pad_idx_zero Wm2 k ⟨q.val, by omega⟩ k.isLt q.isLt

/-- The padded weight matrix at a column from 2 on is 0. -/
theorem wm2_pad_zero (Wm2 : (⟨S128x2, .f32⟩ : BufTy).Contents (Elt Ideal)) (k : Fin 128) (q : Fin 128)
    (hq : 2 ≤ q.val) :
    Host.scatter scatter_S128x128_S1_S128x2_01_n_1_0 (fun _ b => b)
        (broadcastInDim S128x128 ![] bcast_S_S128x128 (constant (F := Ideal) S_ .f32 0x00000000#32))
        (broadcastInDim S1 ![] bcast_S_S1 (constantI S_ 32 0#32)) Wm2 (ix2 k q)
      = (0 : EReal) :=
  (window_write_outside 1 scatter_S128x128_S1_S128x2_01_n_1_0_wf _ _ pad_idx_zero Wm2 k q (Or.inr hq)).trans
    (zero_mat_apply _)

/-- The padded bias at an entry below 2 is the given bias. -/
theorem bm2_pad_apply (bm2 : (⟨S2, .f32⟩ : BufTy).Contents (Elt Ideal)) (q : Fin 2) :
    Host.scatter scatter_S128_S1_S2_0_n_0_0 (fun _ b => b)
        (broadcastInDim S128 ![] bcast_S_S128 (constant (F := Ideal) S_ .f32 0x00000000#32))
        (broadcastInDim S1 ![] bcast_S_S1 (constantI S_ 32 0#32)) bm2 (ix1 ⟨q.val, by omega⟩)
      = bm2 (ix1 q) :=
  vec_write_inside scatter_S128_S1_S2_0_n_0_0_wf _ _ pad_idx_zero bm2 ⟨q.val, by omega⟩ q.isLt

/-- The padded bias at an entry from 2 on is 0. -/
theorem bm2_pad_zero (bm2 : (⟨S2, .f32⟩ : BufTy).Contents (Elt Ideal)) (q : Fin 128) (hq : 2 ≤ q.val) :
    Host.scatter scatter_S128_S1_S2_0_n_0_0 (fun _ b => b)
        (broadcastInDim S128 ![] bcast_S_S128 (constant (F := Ideal) S_ .f32 0x00000000#32))
        (broadcastInDim S1 ![] bcast_S_S1 (constantI S_ 32 0#32)) bm2 (ix1 q)
      = (0 : EReal) :=
  (vec_write_outside scatter_S128_S1_S2_0_n_0_0_wf _ _ pad_idx_zero bm2 q hq).trans (zero_vec_apply _)

end Cert.KernelIdeal.Pay

end
-- ==== Proof.KI.Blocks.lean ====
/-
  Each region's result array as ONE function of its five operand arrays, at the ideal values.

  Region 0 tiles the rows of an [100000, 512] array in 50 blocks of 2000 rows and leaves, in block t of its [100000, 128]
  result, the two dense layers with rectifiers of block t's rows; the four weight and bias operands are seen whole at every
  point. An entry (r, q) of the result therefore depends on row r of the tiled operand only:
  H0(r, q) = relu(relu(a0[r, :]·a1 + a2)·a3 + a4)(q). Region 1 is the same with a [100000, 384] tiled operand and no outer
  rectifier (H1). What a point writes back is its block of that function (the block's row p is the array's row 2000·t + p);
  the 50 blocks cover the result array (row r lies in block r / 2000); so the array ends at the function.
-/
import proofs.«142224_j10273561772519_1_alg».proof.Proof.KI.Region0
import proofs.«142224_j10273561772519_1_alg».proof.Proof.KI.Region1
import proofs.«142224_j10273561772519_1_alg».proof.Proof.KI.Payload
import proofs.«142224_j10273561772519_1_alg».proof.Proof.LibDenseLayer
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer

variable (V : (c : Dev nD) → (b : Ref sig .tc) → Buf (Elt Ideal) ((c : Thread nD τ).loc b))

theorem hz : (![0, 0] : Fin 2 → Nat) = fun _ => 0 := funext fun a => by fin_cases a <;> rfl

/-- Two dense layers with rectifiers, row by row. -/
def H0 (a0 : S100000x512.Idx → EReal) (a1 : S512x128.Idx → EReal) (a2 : S1x128.Idx → EReal) (a3 : S128x128.Idx → EReal)
    (a4 : S1x128.Idx → EReal) : S100000x128.Idx → EReal :=
  fun i => relu (affine (relu (affine (fun k : Fin 512 => a0 (ix2 (⟨(i 0).val, idx2_lt0 i⟩ : Fin 100000) k)) a1 (rowOf a2))) a3 (rowOf a4)) ⟨(i 1).val, idx2_lt1 i⟩

theorem H0_apply (a0 : S100000x512.Idx → EReal) (a1 : S512x128.Idx → EReal) (a2 : S1x128.Idx → EReal) (a3 : S128x128.Idx → EReal)
    (a4 : S1x128.Idx → EReal) (r : Fin 100000) (q : Fin 128) :
    H0 a0 a1 a2 a3 a4 (ix2 r q) = relu (affine (relu (affine (fun k : Fin 512 => a0 (ix2 r k)) a1 (rowOf a2))) a3 (rowOf a4)) q := rfl

/-- A dense layer with a rectifier and a dense layer, row by row. -/
def H1 (a0 : S100000x384.Idx → EReal) (a1 : S384x128.Idx → EReal) (a2 : S1x128.Idx → EReal) (a3 : S128x128.Idx → EReal)
    (a4 : S1x128.Idx → EReal) : S100000x128.Idx → EReal :=
  fun i => affine (relu (affine (fun k : Fin 384 => a0 (ix2 (⟨(i 0).val, idx2_lt0 i⟩ : Fin 100000) k)) a1 (rowOf a2))) a3 (rowOf a4) ⟨(i 1).val, idx2_lt1 i⟩

theorem H1_apply (a0 : S100000x384.Idx → EReal) (a1 : S384x128.Idx → EReal) (a2 : S1x128.Idx → EReal) (a3 : S128x128.Idx → EReal)
    (a4 : S1x128.Idx → EReal) (r : Fin 100000) (q : Fin 128) :
    H1 a0 a1 a2 a3 a4 (ix2 r q) = affine (relu (affine (fun k : Fin 384 => a0 (ix2 r k)) a1 (rowOf a2))) a3 (rowOf a4) q := rfl

/-! ## Region 0 -/

/-- The printed index maps over the grid: the tiled operand and the result sit at block row t, the other operands at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem rows0 (t : Fin cfg0.N) (p : Fin 2000) : t.val * 2000 + p.val < 100000 := by
  have h : t.val < 50 := N_0 ▸ t.isLt
  have := p.isLt; omega

/-- Row p of block t of the tiled operand is row 2000·t + p of the array. -/
theorem iblk0_0_apply (c : Dev nD) (t : Fin cfg0.N) (p : Fin 2000) (k : Fin 512) :
    iblk0 V c 0 t (ix2 p k) = V c main_v0 (ix2 ⟨t.val * 2000 + p.val, rows0 t p⟩ k) := by
  obtain ⟨e0, e1, -⟩ := idx0 t
  show V c main_v0 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- Operand 1 is seen whole at every point. -/
theorem iblk0_1_eq (c : Dev nD) (t : Fin cfg0.N) : (iblk0 V c 1 t : S512x128.Idx → EReal) = V c main_v1 := by
  obtain ⟨-, -, e0, e1, -⟩ := idx0 t
  funext y
  show V c main_v1 (((cfg0.win 1).blk t).view.emb y) = V c main_v1 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 128 + 1 * (y 1).val = (y 1).val; omega
/-- Operand 2 is seen whole at every point. -/
theorem iblk0_2_eq (c : Dev nD) (t : Fin cfg0.N) : (iblk0 V c 2 t : S1x128.Idx → EReal) = V c main_v3 := by
  obtain ⟨-, -, -, -, e0, e1, -⟩ := idx0 t
  funext y
  show V c main_v3 (((cfg0.win 2).blk t).view.emb y) = V c main_v3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
/-- Operand 3 is seen whole at every point. -/
theorem iblk0_3_eq (c : Dev nD) (t : Fin cfg0.N) : (iblk0 V c 3 t : S128x128.Idx → EReal) = V c main_v2 := by
  obtain ⟨-, -, -, -, -, -, e0, e1, -⟩ := idx0 t
  funext y
  show V c main_v2 (((cfg0.win 3).blk t).view.emb y) = V c main_v2 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Operand 4 is seen whole at every point. -/
theorem iblk0_4_eq (c : Dev nD) (t : Fin cfg0.N) : (iblk0 V c 4 t : S1x128.Idx → EReal) = V c main_v4 := by
  obtain ⟨-, -, -, -, -, -, -, -, e0, e1, -⟩ := idx0 t
  funext y
  show V c main_v4 (((cfg0.win 4).blk t).view.emb y) = V c main_v4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Entry (p, q) of the result's block t is entry (2000·t + p, q) of the array. -/
theorem emb0_5 (t : Fin cfg0.N) (p : Fin 2000) (q : Fin 128) :
    ((cfg0.win 5).blk t).view.emb (ix2 p q) = (ix2 ⟨t.val * 2000 + p.val, rows0 t p⟩ q : S100000x128.Idx) := by
  obtain ⟨-, -, -, -, -, -, -, -, -, -, e0, e1⟩ := idx0 t
  refine funext fun a => Fin.ext ?_
  match a with
  | ⟨0, _⟩ => show win0_5.index t (0 : Fin 2) * 2000 + 1 * p.val = t.val * 2000 + p.val; omega
  | ⟨1, _⟩ => show win0_5.index t (1 : Fin 2) * 128 + 1 * q.val = q.val; omega

/-- WHAT POINT t WRITES BACK is block t of H0 of the operand arrays as the region finds them. -/
theorem flushed0_eq (c : Dev nD) (t : Fin cfg0.N) :
    (dat0 V c).flushed 5 t = ((cfg0.win 5).blk t).view.read (Elt Ideal)
      (H0 (V c main_v0) (V c main_v1) (V c main_v3) (V c main_v2) (V c main_v4)) := by
  show (cfg0.win 5).cut (grid0.coords t) ((dat0 V c).after 5 t) = _
  rw [after0_5]
  unfold out0_5
  rw [View.canon_unit_zero hz]
  simp only [View.ld_unit_zero (S := S2000x512) hz, View.ld_unit_zero (S := S512x128) hz, View.ld_unit_zero (S := S1x128) hz,
    View.ld_unit_zero (S := S128x128) hz]
  funext j
  obtain ⟨p, q, rfl⟩ : ∃ (p : Fin 2000) (q : Fin 128), j = ix2 p q := ⟨j 0, j 1, eq_ix2 j⟩
  refine (Cert.KernelIdeal.Pay.k0_pay1_apply (iblk0 V c 0 t) (iblk0 V c 1 t) (iblk0 V c 2 t) (iblk0 V c 3 t) (iblk0 V c 4 t) p q).trans ?_
  rw [View.read_apply, emb0_5 t p q, H0_apply, iblk0_1_eq V c t, iblk0_2_eq V c t, iblk0_3_eq V c t, iblk0_4_eq V c t]
  simp only [iblk0_0_apply V c t]
  exact (cast_eq _ _).symm

/-- An index of the result array is in point t's block iff its row is in rows 2000·t … 2000·t + 1999. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v5).slice (win0_5.rect t)).set ↔ _
  rw [View.set_slice_whole, Rect.mem_set_unit]
  exact Iff.rfl

/-- The 50 blocks cover the result array: row r lies in block r / 2000. -/
theorem cover0 (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 50 := N_0
  refine ⟨⟨(i 0).val / 2000, by rw [hN]; omega⟩, flush0_5 _, ?_⟩
  rw [mem_blk0]
  obtain ⟨-, -, -, -, -, -, -, -, -, -, e0, e1⟩ := idx0 ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e1]; omega

/-- THE RESULT ARRAY after the region: H0 of the operand arrays as the region finds them. -/
theorem final0 (c : Dev nD) : (dat0 V c).arrAt 5 cfg0.N
    = H0 (V c main_v0) (V c main_v1) (V c main_v3) (V c main_v2) (V c main_v4) :=
  (dat0 V c).arrAt_eq_of_cover 5 _ (fun t _ => flushed0_eq V c t) (cover0)

/-! ## Region 1 -/

/-- The printed index maps over the grid: the tiled operand and the result sit at block row t, the other operands at the origin. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem rows1 (t : Fin cfg1.N) (p : Fin 2000) : t.val * 2000 + p.val < 100000 := by
  have h : t.val < 50 := N_1 ▸ t.isLt
  have := p.isLt; omega

/-- Row p of block t of the tiled operand is row 2000·t + p of the array. -/
theorem iblk1_0_apply (c : Dev nD) (t : Fin cfg1.N) (p : Fin 2000) (k : Fin 384) :
    iblk1 V c 0 t (ix2 p k) = V c main_v69 (ix2 ⟨t.val * 2000 + p.val, rows1 t p⟩ k) := by
  obtain ⟨e0, e1, -⟩ := idx1 t
  show V c main_v69 (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 384 + 1 * k.val = k.val; omega

/-- Operand 1 is seen whole at every point. -/
theorem iblk1_1_eq (c : Dev nD) (t : Fin cfg1.N) : (iblk1 V c 1 t : S384x128.Idx → EReal) = V c main_v70 := by
  obtain ⟨-, -, e0, e1, -⟩ := idx1 t
  funext y
  show V c main_v70 (((cfg1.win 1).blk t).view.emb y) = V c main_v70 y
  refine congrArg _ (funext fun a => Fin.ext ?_)
  match a with
  | ⟨0, _⟩ => show win1_1.index t (0 : Fin 2) * 384 + 1 * (y 0).val = (y 0).val; omega
  | ⟨1, _⟩ => show win1_1.index t (1 : Fin 2) * 128 + 1 * (y 1).val = (y 1).val; omega
/-- Operand 2 is seen whole at every point. -/
theorem iblk1_2_eq (c : Dev nD) (t : Fin cfg1.N) : (iblk1 V c 2 t : S1x128.Idx → EReal) = V c main_v71 := by
  obtain ⟨-, -, -, -, e0, e1, -⟩ := idx1 t
  funext y
  show V c main_v71 (((cfg1.win 2).blk t).view.emb y) = V c main_v71 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega
/-- Operand 3 is seen whole at every point. -/
theorem iblk1_3_eq (c : Dev nD) (t : Fin cfg1.N) : (iblk1 V c 3 t : S128x128.Idx → EReal) = V c main_v78 := by
  obtain ⟨-, -, -, -, -, -, e0, e1, -⟩ := idx1 t
  funext y
  show V c main_v78 (((cfg1.win 3).blk t).view.emb y) = V c main_v78 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
/-- Operand 4 is seen whole at every point. -/
theorem iblk1_4_eq (c : Dev nD) (t : Fin cfg1.N) : (iblk1 V c 4 t : S1x128.Idx → EReal) = V c main_v79 := by
  obtain ⟨-, -, -, -, -, -, -, -, e0, e1, -⟩ := idx1 t
  funext y
  show V c main_v79 (((cfg1.win 4).blk t).view.emb y) = V c main_v79 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Entry (p, q) of the result's block t is entry (2000·t + p, q) of the array. -/
theorem emb1_5 (t : Fin cfg1.N) (p : Fin 2000) (q : Fin 128) :
    ((cfg1.win 5).blk t).view.emb (ix2 p q) = (ix2 ⟨t.val * 2000 + p.val, rows1 t p⟩ q : S100000x128.Idx) := by
  obtain ⟨-, -, -, -, -, -, -, -, -, -, e0, e1⟩ := idx1 t
  refine funext fun a => Fin.ext ?_
  match a with
  | ⟨0, _⟩ => show win1_5.index t (0 : Fin 2) * 2000 + 1 * p.val = t.val * 2000 + p.val; omega
  | ⟨1, _⟩ => show win1_5.index t (1 : Fin 2) * 128 + 1 * q.val = q.val; omega

/-- WHAT POINT t WRITES BACK is block t of H1 of the operand arrays as the region finds them. -/
theorem flushed1_eq (c : Dev nD) (t : Fin cfg1.N) :
    (dat1 V c).flushed 5 t = ((cfg1.win 5).blk t).view.read (Elt Ideal)
      (H1 (V c main_v69) (V c main_v70) (V c main_v71) (V c main_v78) (V c main_v79)) := by
  show (cfg1.win 5).cut (grid1.coords t) ((dat1 V c).after 5 t) = _
  rw [after1_5]
  unfold out1_5
  rw [View.canon_unit_zero hz]
  simp only [View.ld_unit_zero (S := S2000x384) hz, View.ld_unit_zero (S := S384x128) hz, View.ld_unit_zero (S := S1x128) hz,
    View.ld_unit_zero (S := S128x128) hz]
  funext j
  obtain ⟨p, q, rfl⟩ : ∃ (p : Fin 2000) (q : Fin 128), j = ix2 p q := ⟨j 0, j 1, eq_ix2 j⟩
  refine (Cert.KernelIdeal.Pay.k1_pay1_apply (iblk1 V c 0 t) (iblk1 V c 1 t) (iblk1 V c 2 t) (iblk1 V c 3 t) (iblk1 V c 4 t) p q).trans ?_
  rw [View.read_apply, emb1_5 t p q, H1_apply, iblk1_1_eq V c t, iblk1_2_eq V c t, iblk1_3_eq V c t, iblk1_4_eq V c t]
  simp only [iblk1_0_apply V c t]
  exact (cast_eq _ _).symm

/-- An index of the result array is in point t's block iff its row is in rows 2000·t … 2000·t + 1999. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v80).slice (win1_5.rect t)).set ↔ _
  rw [View.set_slice_whole, Rect.mem_set_unit]
  exact Iff.rfl

/-- The 50 blocks cover the result array: row r lies in block r / 2000. -/
theorem cover1 (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 50 := N_1
  refine ⟨⟨(i 0).val / 2000, by rw [hN]; omega⟩, flush1_5 _, ?_⟩
  rw [mem_blk1]
  obtain ⟨-, -, -, -, -, -, -, -, -, -, e0, e1⟩ := idx1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- THE RESULT ARRAY after the region: H1 of the operand arrays as the region finds them. -/
theorem final1 (c : Dev nD) : (dat1 V c).arrAt 5 cfg1.N
    = H1 (V c main_v69) (V c main_v70) (V c main_v71) (V c main_v78) (V c main_v79) :=
  (dat1 V c).arrAt_eq_of_cover 5 _ (fun t _ => flushed1_eq V c t) (cover1)

end Cert.KernelIdeal.Fr

end
-- ==== Proof.Spec.lean ====
/-
  The function both programs compute, on the extended reals.

  A node's hidden row is two dense layers with rectifiers: h = relu(relu(x·W1 + b1)·W2 + b2) (`hidden`).
  With deg(v) the number of edges whose destination is v and D = max(deg, 1)^(-1/2), one Laplacian step is
  L(f) = f − D ⊙ scatter_add_dst(gather_src(f ⊙ D))  (`lap`: the gather reads row src(e), a negative index wrapped by
  the number of rows, and the scatter adds row e into row dst(e)). The three wavelet filters are the combinations
  (a·f0 + b·f1) + c·f2 of f0 = h, f1 = L(h), f2 = L(L(h)) with coefficients (3, −3, 3/4), (0, 3, −3/2), (0, 0, 3/4),
  joined along the columns into an [n, 384] array (`mid`). The output row is a dense layer with a rectifier followed by a
  dense layer onto two columns (`head`). `out` is their composition: the result array of both programs.
  The middle stretch is kept as ONE array function of h and the two index arrays, built from the host operations
  themselves: both programs spell it with the same operations, so neither side is read entry by entry there.
-/
import Idealize.ShloMosaic.PureOps.Ideal
import Idealize.ShloMosaic.Lib.ValueIdx
import proofs.«142224_j10273561772519_1_alg».proof.Proof.LibDenseLayer

noncomputable section

namespace Cert.Spec

open Idealize.ShloMosaic Idealize.ShloMosaic.ValueIdx Cert.DenseLayer

abbrev Sx : Shape := ⟨2, ![100000, 512]⟩
abbrev Se : Shape := ⟨1, ![1600000]⟩
abbrev Se1 : Shape := ⟨2, ![1600000, 1]⟩
abbrev Sn : Shape := ⟨1, ![100000]⟩
abbrev Sn1 : Shape := ⟨2, ![100000, 1]⟩
abbrev Sh : Shape := ⟨2, ![100000, 128]⟩
abbrev Seh : Shape := ⟨2, ![1600000, 128]⟩
abbrev Sf : Shape := ⟨2, ![100000, 384]⟩
abbrev So : Shape := ⟨2, ![100000, 2]⟩
abbrev S0 : Shape := ⟨0, ![]⟩
abbrev Sv : Shape := ⟨1, ![128]⟩
abbrev Sv2 : Shape := ⟨1, ![2]⟩
abbrev Sw1 : Shape := ⟨2, ![512, 128]⟩
abbrev Sw2 : Shape := ⟨2, ![128, 128]⟩
abbrev Swm1 : Shape := ⟨2, ![384, 128]⟩
abbrev Swm2 : Shape := ⟨2, ![128, 2]⟩

/-! ## The dense stages, entry by entry -/

/-- A [d] vector as a function of its entry's number. -/
def vecOf {d : ℕ} (b : (⟨1, ![d]⟩ : Shape).Idx → EReal) : Fin d → EReal := fun q => b (ix1 q)

/-- Row p of an [n, K] matrix. -/
def rowAt {n K : ℕ} (A : (⟨2, ![n, K]⟩ : Shape).Idx → EReal) (p : Fin n) : Fin K → EReal := fun k => A (ix2 p k)

/-- The hidden row of every node: relu(relu(x·W1 + b1)·W2 + b2). -/
def hidden (x : Sx.Idx → EReal) (W1 : Sw1.Idx → EReal) (b1 : Sv.Idx → EReal) (W2 : Sw2.Idx → EReal) (b2 : Sv.Idx → EReal) :
    Sh.Idx → EReal :=
  fun i => relu (affine (relu (affine (rowAt x (i 0)) W1 (vecOf b1))) W2 (vecOf b2)) (i 1)

theorem hidden_apply (x : Sx.Idx → EReal) (W1 : Sw1.Idx → EReal) (b1 : Sv.Idx → EReal) (W2 : Sw2.Idx → EReal)
    (b2 : Sv.Idx → EReal) (p : Fin 100000) (q : Fin 128) :
    hidden x W1 b1 W2 b2 (ix2 p q) = relu (affine (relu (affine (rowAt x p) W1 (vecOf b1))) W2 (vecOf b2)) q := rfl

/-- The output row of every node: relu(f·Wm1 + bm1)·Wm2 + bm2. -/
def head (f : Sf.Idx → EReal) (Wm1 : Swm1.Idx → EReal) (bm1 : Sv.Idx → EReal) (Wm2 : Swm2.Idx → EReal)
    (bm2 : Sv2.Idx → EReal) : So.Idx → EReal :=
  fun i => affine (relu (affine (rowAt f (i 0)) Wm1 (vecOf bm1))) Wm2 (vecOf bm2) (i 1)

theorem head_apply (f : Sf.Idx → EReal) (Wm1 : Swm1.Idx → EReal) (bm1 : Sv.Idx → EReal) (Wm2 : Swm2.Idx → EReal)
    (bm2 : Sv2.Idx → EReal) (p : Fin 100000) (q : Fin 2) :
    head f Wm1 bm1 Wm2 bm2 (ix2 p q) = affine (relu (affine (rowAt f p) Wm1 (vecOf bm1))) Wm2 (vecOf bm2) q := rfl

/-! ## The middle stretch, as one array function -/

theorem b_0_e : S0.BroadcastsInDim Se (![] : Fin 0 → Fin Se.rank) := by decide
theorem b_0_n : S0.BroadcastsInDim Sn (![] : Fin 0 → Fin Sn.rank) := by decide
theorem b_e_e1 : Se.BroadcastsInDim Se1 (![0] : Fin 1 → Fin Se1.rank) := by decide
theorem b_n_n1 : Sn.BroadcastsInDim Sn1 (![0] : Fin 1 → Fin Sn1.rank) := by decide
theorem b_n1_h : Sn1.BroadcastsInDim Sh (![0, 1] : Fin 2 → Fin Sh.rank) := by decide
theorem b_0_h : S0.BroadcastsInDim Sh (![] : Fin 0 → Fin Sh.rank) := by decide
theorem cat3 : Shape.Concatenates [Sh, Sh, Sh] Sf 1 := by decide

/-- Adding one number per edge into a per-node vector (the degree count). -/
def degDims : ScatterDims Sn Se1 Se where
  updateWindowDims := []
  insertedWindowDims := [0]
  scatterDimsToOperandDims := [0]
  indexVectorDim := 1
  wf := by decide
/-- Reading one row per edge. -/
def rowGather : GatherDims Sh Se1 Seh where
  offsetDims := [1]
  collapsedSliceDims := [0]
  operandBatchingDims := []
  startIndicesBatchingDims := []
  startIndexMap := [0]
  indexVectorDim := 1
  sliceSizes := ![1, 128]
  wf := by decide
/-- Adding one row per edge into a per-node matrix. -/
def rowScatter : ScatterDims Sh Se1 Seh where
  updateWindowDims := [1]
  insertedWindowDims := [0]
  scatterDimsToOperandDims := [0]
  indexVectorDim := 1
  wf := by decide

section Mid
variable {F : FTy → Type} [FloatOps F]

/-- max(deg, 1)^(-1/2) as an [n, 1] column: the degree counted by adding 1.0 per edge at its destination. -/
def dinv (dst : (⟨Se, .i32⟩ : BufTy).Contents (Elt F)) : (⟨Sn1, .f32⟩ : BufTy).Contents (Elt F) :=
  broadcastInDim Sn1 ![0] b_n_n1
    (Host.powf
      (maximumf (broadcastInDim Sn ![] b_0_n (id (constant S0 .f32 0x3F800000#32 : (⟨S0, .f32⟩ : BufTy).Contents (Elt F))))
        (Host.scatterAdd degDims (broadcastInDim Sn ![] b_0_n (constant S0 .f32 0x00000000#32))
          (broadcastInDim Se1 ![0] b_e_e1 dst) (broadcastInDim Se ![] b_0_e (constant S0 .f32 0x3F800000#32))))
      (broadcastInDim Sn ![] b_0_n (constant S0 .f32 0xBF000000#32)))

/-- One Laplacian step f − D ⊙ scatter_add_dst(gather_src(f ⊙ D)), a negative source index wrapped by n. -/
def lap (src dst : (⟨Se, .i32⟩ : BufTy).Contents (Elt F)) (f : (⟨Sh, .f32⟩ : BufTy).Contents (Elt F)) :
    (⟨Sh, .f32⟩ : BufTy).Contents (Elt F) :=
  subf f
    (mulf
      (Host.scatterAdd rowScatter (broadcastInDim Sh ![] b_0_h (constant S0 .f32 0x00000000#32))
        (broadcastInDim Se1 ![0] b_e_e1 dst)
        (Host.gather rowGather (mulf f (broadcastInDim Sh ![0, 1] b_n1_h (dinv dst)))
          (broadcastInDim Se1 ![0] b_e_e1
            (select (cmpi .slt src (broadcastInDim Se ![] b_0_e (constantI S0 32 0#32)))
              (addi src (broadcastInDim Se ![] b_0_e (constantI S0 32 100000#32))) src))))
      (broadcastInDim Sh ![0, 1] b_n1_h (dinv dst)))

/-- (a·f0 + b·f1) + c·f2 with f32 coefficient words a, b, c. -/
def comb (a b c : BitVec 32) (f0 f1 f2 : (⟨Sh, .f32⟩ : BufTy).Contents (Elt F)) : (⟨Sh, .f32⟩ : BufTy).Contents (Elt F) :=
  addf (addf (mulf (broadcastInDim Sh ![] b_0_h (constant S0 .f32 a)) f0) (mulf (broadcastInDim Sh ![] b_0_h (constant S0 .f32 b)) f1))
    (mulf (broadcastInDim Sh ![] b_0_h (constant S0 .f32 c)) f2)

/-- The three wavelet filters of h, L(h), L(L(h)), joined along the columns. -/
def mid (h : (⟨Sh, .f32⟩ : BufTy).Contents (Elt F)) (src dst : (⟨Se, .i32⟩ : BufTy).Contents (Elt F)) :
    (⟨Sf, .f32⟩ : BufTy).Contents (Elt F) :=
  concatenate Sf 1
    [⟨Sh, comb 0x40400000#32 0xC0400000#32 0x3F400000#32 h (lap src dst h) (lap src dst (lap src dst h))⟩,
     ⟨Sh, comb 0x00000000#32 0x40400000#32 0xBFC00000#32 h (lap src dst h) (lap src dst (lap src dst h))⟩,
     ⟨Sh, comb 0x00000000#32 0x00000000#32 0x3F400000#32 h (lap src dst h) (lap src dst (lap src dst h))⟩] cat3

end Mid

/-! ## The result -/

/-- The [n, 2] result array of both programs, from the argument arrays. -/
def out (x : Sx.Idx → EReal) (src dst : (⟨Se, .i32⟩ : BufTy).Contents (Elt Ideal)) (W1 : Sw1.Idx → EReal) (b1 : Sv.Idx → EReal)
    (W2 : Sw2.Idx → EReal) (b2 : Sv.Idx → EReal) (Wm1 : Swm1.Idx → EReal) (bm1 : Sv.Idx → EReal) (Wm2 : Swm2.Idx → EReal)
    (bm2 : Sv2.Idx → EReal) : So.Idx → EReal :=
  head (mid (F := Ideal) (hidden x W1 b1 W2 b2) src dst) Wm1 bm1 Wm2 bm2

end Cert.Spec

end
-- ==== Proof.KI.Host.lean ====
/-
  The host stretches, read: what the buffers the regions stage hold when each region is entered, and what the result
  buffer holds at the return, as the host operations' own terms of the contents at the previous boundary.
  Before region 0: the tiled operand and the two weight matrices are the arguments cast to bf16, the two biases the
  arguments reshaped to one-row matrices. Between the regions (stated over ANY contents W at region 0's exit): the head's
  tiled operand is the bf16 cast of the middle stretch `Cert.Spec.mid` of region 0's result and the two index arguments —
  the program spells the degree scaling, the two Laplacian steps, the three filter combinations and the join with the very
  operations `mid` is built from —; its first weight and bias are the arguments cast / reshaped; its second weight and bias
  are the arguments written at the origin of a zero matrix / zero vector, cast / reshaped. After region 1 the result is the
  first two columns of region 1's result array.
-/
import proofs.«142224_j10273561772519_1_alg».proof.Proof.KI.Run
import proofs.«142224_j10273561772519_1_alg».proof.Proof.Spec
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo

variable {F : FTy → Type} [FloatOps F]

/-- A three-operand operation's result with each operand's contents at its own reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- Each operation's result at its own buffer rewritten to its function's value, at any other buffer to what was there:
    one pass, shared subterms visited once. -/
macro "host_results" : tactic =>
  `(tactic| (simp (disch := decide) only [after_cons, after_nil,
      nullary_result', unary_result', binary_result', ternary_result', quaternary_result', reshape_result', nary3_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-! ## Before region 0 -/

section Pre
variable (W : Valuation τ sig (Elt F))

theorem pre_v0 : after (main_part0_ops0 (F := F)) W (Proc.devRef .tc main_v0)
    = (truncf .bf16 (W (Proc.devRef .tc main_arg0)) bitsLt_bf16_f32 : (⟨S100000x512, .bf16⟩ : BufTy).Contents (Elt F)) := by
  host_results
theorem pre_v1 : after (main_part0_ops0 (F := F)) W (Proc.devRef .tc main_v1)
    = (truncf .bf16 (W (Proc.devRef .tc main_arg3)) bitsLt_bf16_f32 : (⟨S512x128, .bf16⟩ : BufTy).Contents (Elt F)) := by
  host_results
theorem pre_v2 : after (main_part0_ops0 (F := F)) W (Proc.devRef .tc main_v2)
    = (truncf .bf16 (W (Proc.devRef .tc main_arg5)) bitsLt_bf16_f32 : (⟨S128x128, .bf16⟩ : BufTy).Contents (Elt F)) := by
  host_results
theorem pre_v3 : after (main_part0_ops0 (F := F)) W (Proc.devRef .tc main_v3)
    = (shapeCast S1x128 (W (Proc.devRef .tc main_arg4) : (⟨S128, .f32⟩ : BufTy).Contents (Elt F)) shapeCasts_S128_S1x128 : (⟨S1x128, .f32⟩ : BufTy).Contents (Elt F)) := by
  host_results; rfl
theorem pre_v4 : after (main_part0_ops0 (F := F)) W (Proc.devRef .tc main_v4)
    = (shapeCast S1x128 (W (Proc.devRef .tc main_arg6) : (⟨S128, .f32⟩ : BufTy).Contents (Elt F)) shapeCasts_S128_S1x128 : (⟨S1x128, .f32⟩ : BufTy).Contents (Elt F)) := by
  host_results; rfl

end Pre

/-! ## Between the regions -/

section Mid
variable (W : Valuation τ sig (Elt F))

/-- The contents at region 1's entry from the contents W at region 0's exit. -/
abbrev between : Valuation τ sig (Elt F) :=
  after main_part1_ops0 (after main_part0_ops3 (after main_part0_ops2 (after main_part0_ops1 W)))

set_option maxHeartbeats 40000000 in
theorem mid_v69 : between W (Proc.devRef .tc main_v69)
    = (truncf .bf16 (Cert.Spec.mid (W (Proc.devRef .tc main_v5)) (W (Proc.devRef .tc main_arg1)) (W (Proc.devRef .tc main_arg2))) bitsLt_bf16_f32
        : (⟨S100000x384, .bf16⟩ : BufTy).Contents (Elt F)) := by
  host_results; rfl

set_option maxHeartbeats 40000000 in
theorem mid_v70 : between W (Proc.devRef .tc main_v70)
    = (truncf .bf16 (W (Proc.devRef .tc main_arg7)) bitsLt_bf16_f32 : (⟨S384x128, .bf16⟩ : BufTy).Contents (Elt F)) := by
  host_results

set_option maxHeartbeats 40000000 in
theorem mid_v71 : between W (Proc.devRef .tc main_v71)
    = (shapeCast S1x128 (W (Proc.devRef .tc main_arg8) : (⟨S128, .f32⟩ : BufTy).Contents (Elt F)) shapeCasts_S128_S1x128 : (⟨S1x128, .f32⟩ : BufTy).Contents (Elt F)) := by
  host_results; rfl

set_option maxHeartbeats 40000000 in
theorem mid_v78 : between W (Proc.devRef .tc main_v78)
    = (truncf .bf16 (Host.scatter scatter_S128x128_S1_S128x2_01_n_1_0 (fun _ b => b)
          (broadcastInDim S128x128 ![] bcast_S_S128x128 (constant S_ .f32 0x00000000#32))
          (broadcastInDim S1 ![] bcast_S_S1 (constantI S_ 32 0#32)) (W (Proc.devRef .tc main_arg9))) bitsLt_bf16_f32
        : (⟨S128x128, .bf16⟩ : BufTy).Contents (Elt F)) := by
  host_results

set_option maxHeartbeats 40000000 in
theorem mid_v79 : between W (Proc.devRef .tc main_v79)
    = (shapeCast S1x128 (Host.scatter scatter_S128_S1_S2_0_n_0_0 (fun _ b => b)
          (broadcastInDim S128 ![] bcast_S_S128 (constant S_ .f32 0x00000000#32))
          (broadcastInDim S1 ![] bcast_S_S1 (constantI S_ 32 0#32)) (W (Proc.devRef .tc main_arg10)) : (⟨S128, .f32⟩ : BufTy).Contents (Elt F))
        shapeCasts_S128_S1x128 : (⟨S1x128, .f32⟩ : BufTy).Contents (Elt F)) := by
  host_results; rfl

end Mid

/-! ## After region 1 -/

theorem post_v81 (W : Valuation τ sig (Elt F)) : after (main_part1_ops1 (F := F)) W (Proc.devRef .tc main_v81)
    = (extractStridedSlice S100000x2 ![0, 0] (W (Proc.devRef .tc main_v80) : (⟨S100000x128, .f32⟩ : BufTy).Contents (Elt F)) slices_S100000x128_S100000x2_0_0
        : (⟨S100000x2, .f32⟩ : BufTy).Contents (Elt F)) := by
  host_results

end Cert.KernelIdeal.Fr

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.KI.Value.lean ====
/-
  The idealized kernel's returned buffer is the specification `Cert.Spec.out` of the argument arrays.

  At the ideal values a cast to bf16 changes nothing, a vector reshaped to a one-row matrix reads back as the vector, and the
  head's second weight matrix and bias, written at the origin of a zero [128, 128] matrix and a zero [128] vector, read at
  the first two columns as the arguments themselves. So region 0 leaves `hidden` of (x, W1, b1, W2, b2) in its result
  array; the middle stretch turns that into `mid` of it; region 1 leaves, at column q < 2 of row r, the head's entry
  (r, q); and the final slice keeps exactly those columns.
-/
import proofs.«142224_j10273561772519_1_alg».proof.Proof.KI.Run
import proofs.«142224_j10273561772519_1_alg».proof.Proof.KI.Blocks
import proofs.«142224_j10273561772519_1_alg».proof.Proof.KI.Host
import proofs.«142224_j10273561772519_1_alg».proof.Proof.KI.Payload
import proofs.«142224_j10273561772519_1_alg».proof.Proof.Spec
import proofs.«142224_j10273561772519_1_alg».proof.Proof.LibRowVector
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem Idealize.ShloMosaic.StableHlo
open Cert.DenseLayer

variable (m : (ℓ : Loc nD τ sig) → Buf (Elt Ideal) ℓ) (ρ : Dev nD → PrngReg)

/-- A vector carried as a one-row matrix reads back as the vector. -/
theorem rowOf_reshape (b : S128.Idx → EReal) : rowOf (shapeCast S1x128 b shapeCasts_S128_S1x128) = Cert.Spec.vecOf b :=
  funext fun q => Cert.RowVector.shapeCast_b_1b_apply b shapeCasts_S128_S1x128 0 q

/-- At region 0's exit every argument array is as launched. -/
theorem W2_arg (c : Dev nD) (k : Fin 11) : W2 m ρ c (Proc.devRef .tc (argRef k)) = m ((c : Thread nD τ).loc (argRef k)) :=
  (W2_of_ne m ρ c (argRef k) (by revert k; decide)).trans ((keep_A0 _ k).trans rfl)

/-! ## Region 0's operands and result -/

theorem V1_v0 (c : Dev nD) : (V1 m ρ c main_v0 : S100000x512.Idx → EReal) = (m ((c : Thread nD τ).loc main_arg0)) := (pre_v0 (W0 m ρ c)).trans rfl
theorem V1_v1 (c : Dev nD) : (V1 m ρ c main_v1 : S512x128.Idx → EReal) = (m ((c : Thread nD τ).loc main_arg3)) := (pre_v1 (W0 m ρ c)).trans rfl
theorem V1_v2 (c : Dev nD) : (V1 m ρ c main_v2 : S128x128.Idx → EReal) = (m ((c : Thread nD τ).loc main_arg5)) := (pre_v2 (W0 m ρ c)).trans rfl
theorem V1_v3 (c : Dev nD) : (V1 m ρ c main_v3 : S1x128.Idx → EReal) = shapeCast S1x128 (m ((c : Thread nD τ).loc main_arg4)) shapeCasts_S128_S1x128 :=
  (pre_v3 (W0 m ρ c)).trans rfl
theorem V1_v4 (c : Dev nD) : (V1 m ρ c main_v4 : S1x128.Idx → EReal) = shapeCast S1x128 (m ((c : Thread nD τ).loc main_arg6)) shapeCasts_S128_S1x128 :=
  (pre_v4 (W0 m ρ c)).trans rfl

/-- Region 0 leaves the hidden rows. -/
theorem h_eq (c : Dev nD) : (W2 m ρ c (Proc.devRef .tc main_v5) : S100000x128.Idx → EReal)
    = Cert.Spec.hidden (m ((c : Thread nD τ).loc main_arg0)) (m ((c : Thread nD τ).loc main_arg3)) (m ((c : Thread nD τ).loc main_arg4)) (m ((c : Thread nD τ).loc main_arg5)) (m ((c : Thread nD τ).loc main_arg6)) := by
  refine (W2_arr m ρ c 5).trans ?_
  rw [final0 (V1 m ρ) c]
  funext i
  obtain ⟨r, q, rfl⟩ : ∃ (r : Fin 100000) (q : Fin 128), i = ix2 r q := ⟨i 0, i 1, eq_ix2 i⟩
  rw [H0_apply, Cert.Spec.hidden_apply, V1_v0, V1_v1, V1_v2, V1_v3, V1_v4, rowOf_reshape, rowOf_reshape]
  rfl

/-! ## Region 1's operands -/

theorem V6_v69 (c : Dev nD) : (V6 m ρ c main_v69 : S100000x384.Idx → EReal)
    = Cert.Spec.mid (F := Ideal) (Cert.Spec.hidden (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) := by
  refine (mid_v69 (W2 m ρ c)).trans ?_
  rw [h_eq m ρ c, show W2 m ρ c (Proc.devRef .tc main_arg1) = (m ((c : Thread nD τ).loc main_arg1)) from W2_arg m ρ c 1,
    show W2 m ρ c (Proc.devRef .tc main_arg2) = (m ((c : Thread nD τ).loc main_arg2)) from W2_arg m ρ c 2]
  rfl
theorem V6_v70 (c : Dev nD) : (V6 m ρ c main_v70 : S384x128.Idx → EReal) = (m ((c : Thread nD τ).loc main_arg7)) := by
  refine (mid_v70 (W2 m ρ c)).trans ?_
  rw [show W2 m ρ c (Proc.devRef .tc main_arg7) = (m ((c : Thread nD τ).loc main_arg7)) from W2_arg m ρ c 7]
  rfl
theorem V6_v71 (c : Dev nD) : (V6 m ρ c main_v71 : S1x128.Idx → EReal) = shapeCast S1x128 (m ((c : Thread nD τ).loc main_arg8)) shapeCasts_S128_S1x128 := by
  refine (mid_v71 (W2 m ρ c)).trans ?_
  rw [show W2 m ρ c (Proc.devRef .tc main_arg8) = (m ((c : Thread nD τ).loc main_arg8)) from W2_arg m ρ c 8]
theorem V6_v78 (c : Dev nD) : (V6 m ρ c main_v78 : S128x128.Idx → EReal)
    = Host.scatter scatter_S128x128_S1_S128x2_01_n_1_0 (fun _ b => b)
        (broadcastInDim S128x128 ![] bcast_S_S128x128 (constant (F := Ideal) S_ .f32 0x00000000#32))
        (broadcastInDim S1 ![] bcast_S_S1 (constantI S_ 32 0#32)) (m ((c : Thread nD τ).loc main_arg9)) := by
  refine (mid_v78 (W2 m ρ c)).trans ?_
  rw [show W2 m ρ c (Proc.devRef .tc main_arg9) = (m ((c : Thread nD τ).loc main_arg9)) from W2_arg m ρ c 9]
  rfl
theorem V6_v79 (c : Dev nD) : (V6 m ρ c main_v79 : S1x128.Idx → EReal)
    = shapeCast S1x128 (Host.scatter scatter_S128_S1_S2_0_n_0_0 (fun _ b => b)
        (broadcastInDim S128 ![] bcast_S_S128 (constant (F := Ideal) S_ .f32 0x00000000#32))
        (broadcastInDim S1 ![] bcast_S_S1 (constantI S_ 32 0#32)) (m ((c : Thread nD τ).loc main_arg10)) : S128.Idx → EReal) shapeCasts_S128_S1x128 := by
  refine (mid_v79 (W2 m ρ c)).trans ?_
  rw [show W2 m ρ c (Proc.devRef .tc main_arg10) = (m ((c : Thread nD τ).loc main_arg10)) from W2_arg m ρ c 10]

/-! ## The returned buffer -/

/-- THE KERNEL'S RESULT: the returned [100000, 2] buffer is `Cert.Spec.out` of the argument arrays. -/
theorem out_eq (c : Dev nD) : (W8 m ρ c (Proc.devRef .tc main_v81) : S100000x2.Idx → EReal)
    = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (post_v81 (W7 m ρ c)).trans ?_
  funext i
  obtain ⟨r, q, rfl⟩ : ∃ (r : Fin 100000) (q : Fin 2), i = ix2 r q := ⟨i 0, i 1, eq_ix2 i⟩
  have hq : q.val < 128 := by have := q.isLt; omega
  rw [extractStridedSlice_apply ![0, 0] _ slices_S100000x128_S100000x2_0_0 (ix2 r q) (ix2 r (⟨q.val, hq⟩ : Fin 128)) (fun a => by
    match a with
    | ⟨0, _⟩ => show r.val = 0 + r.val; omega
    | ⟨1, _⟩ => show q.val = 0 + q.val; omega)]
  rw [show W7 m ρ c (Proc.devRef .tc main_v80) = (dat1 (V6 m ρ) c).arrAt 5 cfg1.N from W7_arr m ρ c 5, final1 (V6 m ρ) c, H1_apply]
  unfold Cert.Spec.out
  rw [Cert.Spec.head_apply, V6_v69, V6_v70, V6_v71, V6_v78, V6_v79, rowOf_reshape, rowOf_reshape]
  refine congrArg₂ (· + ·) (Finset.sum_congr rfl fun k _ => congrArg₂ (· * ·) rfl ?_) ?_
  · exact Cert.KernelIdeal.Pay.wm2_pad_apply (m ((c : Thread nD τ).loc main_arg9)) k q
  · exact Cert.KernelIdeal.Pay.bm2_pad_apply (m ((c : Thread nD τ).loc main_arg10)) q

/-- THE RUN, READ: every weakly fair execution of the idealized kernel terminates, nothing faulting, with the returned
    buffer at `Cert.Spec.out` of the argument arrays and every argument array as launched. -/
theorem run_value : θ_run defs (onTc (τ := τ) (main (F := Ideal))) ⟨m, fun _ => 0, ρ⟩ (fun r => ∀ c : Dev nD,
      r.2.mem ((c.tc : Thread nD τ).loc main_v81) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ ∀ k : Fin 11, r.2.mem ((c.tc : Thread nD τ).loc (argRef k)) = m ((c.tc : Thread nD τ).loc (argRef k))) :=
  (θ_run defs _ _).mono (fun _ h c => ⟨(h c _ (mem_uc main_v81 (by decide))).trans (out_eq m ρ c),
      fun k => (h c _ (mem_uc (argRef k) (by revert k; decide))).trans (W8_arg m ρ c k)⟩) (run_all m ρ)

end Cert.KernelIdeal.Fr

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibHostAffine.lean ====
/-
  A host affine layer and a host relu on the extended reals, read at an entry.

  jnp writes  y @ W + b  as a `dot_general` of an [n, K] by a [K, N] matrix plus the bias vector [N] laid along the rows by
  two broadcasts ([N] to [1, N] to [n, N]); read at (p, q) that is  Σ_k y(p, k) · W(k, q) + b(q).  And  maximum(y, 0.0)  is a
  `maximum` against the scalar zero broadcast to y's shape; read at an index it is  max (y i) 0.  Nothing here mentions a
  program: the product's record is taken in its literal plain form.
-/
import proofs.«142224_j10273561772519_1_alg».proof.Proof.LibPlainMatmul
import proofs.«142224_j10273561772519_1_alg».proof.Proof.LibVecBcast

noncomputable section

namespace Cert.HostAffine

open Idealize.ShloMosaic Idealize.ShloMosaic.ValueIdx

/-- Entry (p, q) of  y @ W + b  on the host:  Σ_k y(p, k) · W(k, q) + b(q). -/
theorem affine_apply {n K N : ℕ} {φ₁ φ₂ : FTy}
    (wf : DotDims.WF (⟨2, ![n, K]⟩ : Shape) (⟨2, ![K, N]⟩ : Shape) (⟨2, ![n, N]⟩ : Shape) [1] [0] [0] [1] [] [])
    (h1 : (⟨1, ![N]⟩ : Shape).BroadcastsInDim ⟨2, ![1, N]⟩ ![1])
    (h2 : (⟨2, ![1, N]⟩ : Shape).BroadcastsInDim ⟨2, ![n, N]⟩ ![0, 1])
    (y : FVec Ideal (⟨2, ![n, K]⟩ : Shape) φ₁) (W : FVec Ideal (⟨2, ![K, N]⟩ : Shape) φ₂)
    (b : FVec Ideal (⟨1, ![N]⟩ : Shape) .f32) (p : Fin n) (q : Fin N) :
    addf (Host.dotGeneral (Cert.PlainMatmul.plain wf) none y W)
        (broadcastInDim ⟨2, ![n, N]⟩ ![0, 1] h2 (broadcastInDim ⟨2, ![1, N]⟩ ![1] h1 b)) (ix2 p q)
      = (∑ k : Fin K, y (ix2 p k) * W (ix2 k q)) + b (ix1 q) := by
  rw [addf_apply, Cert.VecBcast.rowVec_bcast_apply]
  exact congrArg (· + b (ix1 q)) (Cert.PlainMatmul.dotGeneral_apply wf none .single y W p q)

/-- maximum(y, 0.0) on the host at an index:  max (y i) 0. -/
theorem relu_apply {s : Shape} (h : (⟨0, ![]⟩ : Shape).BroadcastsInDim s ![]) (y : FVec Ideal s .f32) (i : s.Idx) :
    maximumf y (broadcastInDim s ![] h (constant (F := Ideal) ⟨0, ![]⟩ .f32 0x00000000#32)) i = max (y i) 0 := by
  rw [maximumf_apply, broadcastInDim_apply ![] h _ i ix0 (fun a => a.elim0), constant_apply, Ideal.ofBits_zero_f32]

end Cert.HostAffine

end
-- ==== Proof.RefSide.lean ====
/-
  The reference program computes the specification function.

  The reference's result array is read in three stretches.  Its first two layers and its last two are host dense layers:
  a product of an [n, K] by a [K, N] matrix plus a bias vector laid along the rows, followed (except for the last) by the
  maximum with the zero array.  At the ideal values entry (p, q) of such a layer is  max (Σ_k y(p, k) · W(k, q) + b(q)) 0,
  the rectified affine image of row p (`layer_relu_apply`), so the first two layers are the hidden row of every node
  (`hidden_eq`) and the last two are the output row computed from the joined [n, 384] array (`head_eq`).  The stretch in
  between — the degree scaling, the two Laplacian steps by gather and scatter-add, and the three filter combinations
  joined along the columns — is spelled in the specification with the very operations the reference applies, in the same
  order, so the two are equal as array functions by unfolding both, at any float instance (`mid_eq`); no entry of it is
  read.  Composing the three gives the result array as the specification function of the eleven arguments (`out_eq`), and
  with the generated identification of the run's result term with the last stage, the run term itself (`ref_eq`).
-/
import proofs.«142224_j10273561772519_1_alg».proof.Proof.Gen.ReferenceIdeal.Read
import proofs.«142224_j10273561772519_1_alg».proof.Proof.Spec
import proofs.«142224_j10273561772519_1_alg».proof.Proof.LibHostAffine

noncomputable section

namespace Cert.RefSide

open Cert.ReferenceIdeal Cert.ReferenceIdeal.Gen Cert.ReferenceIdeal.Read Idealize.ShloMosaic Idealize.ShloMosaic.ValueIdx
open scoped BigOperators

/-- A host layer with a rectifier, read at (p, q): the rectified affine image of row p. -/
theorem layer_relu_apply {n K N : ℕ}
    (wf : DotDims.WF (⟨2, ![n, K]⟩ : Shape) (⟨2, ![K, N]⟩ : Shape) (⟨2, ![n, N]⟩ : Shape) [1] [0] [0] [1] [] [])
    (h1 : (⟨1, ![N]⟩ : Shape).BroadcastsInDim ⟨2, ![1, N]⟩ ![1])
    (h2 : (⟨2, ![1, N]⟩ : Shape).BroadcastsInDim ⟨2, ![n, N]⟩ ![0, 1])
    (h0 : (⟨0, ![]⟩ : Shape).BroadcastsInDim ⟨2, ![n, N]⟩ ![])
    (y : FVec Ideal (⟨2, ![n, K]⟩ : Shape) .f32) (W : FVec Ideal (⟨2, ![K, N]⟩ : Shape) .f32)
    (b : FVec Ideal (⟨1, ![N]⟩ : Shape) .f32) (p : Fin n) (q : Fin N) :
    maximumf (addf (Host.dotGeneral (Cert.PlainMatmul.plain wf) none y W)
        (broadcastInDim ⟨2, ![n, N]⟩ ![0, 1] h2 (broadcastInDim ⟨2, ![1, N]⟩ ![1] h1 b)))
      (broadcastInDim ⟨2, ![n, N]⟩ ![] h0 (constant (F := Ideal) ⟨0, ![]⟩ .f32 0x00000000#32)) (ix2 p q)
      = Cert.DenseLayer.relu (Cert.DenseLayer.affine (Cert.Spec.rowAt y p) W (Cert.Spec.vecOf b)) q := by
  rw [Cert.HostAffine.relu_apply, Cert.HostAffine.affine_apply]
  rfl

/-- The reference's first two layers are the hidden row of every node. -/
theorem hidden_eq (x0 : (⟨S100000x512, .f32⟩ : BufTy).Contents (Elt Ideal))
    (x3 : (⟨S512x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v9 (F := Ideal) x0 x3 x4 x5 x6 = Cert.Spec.hidden x0 x3 x4 x5 x6 := by
  funext i
  obtain ⟨p, q, rfl⟩ : ∃ p q, i = ix2 p q := ⟨i 0, i 1, eq_ix2 i⟩
  rw [Cert.Spec.hidden_apply]
  have hrow : Cert.Spec.rowAt (val_main_v4 (F := Ideal) x0 x3 x4) p
      = Cert.DenseLayer.relu (Cert.DenseLayer.affine (Cert.Spec.rowAt x0 p) x3 (Cert.Spec.vecOf x4)) := funext fun k =>
    layer_relu_apply dot_S100000x512_S512x128_S100000x128_1_0_0_1_n_n_wf bcast_S128_S1x128_1 bcast_S1x128_S100000x128_0_1
      bcast_S_S100000x128 x0 x3 x4 p k
  rw [← hrow]
  exact layer_relu_apply dot_S100000x128_S128x128_S100000x128_1_0_0_1_n_n_wf bcast_S128_S1x128_1 bcast_S1x128_S100000x128_0_1
    bcast_S_S100000x128 (val_main_v4 (F := Ideal) x0 x3 x4) x5 x6 p q

section Mid
variable {F : FTy → Type} [FloatOps F]

/-- The reference's middle stretch is the specification's, operation for operation. -/
theorem mid_eq (x0 : (⟨S100000x512, .f32⟩ : BufTy).Contents (Elt F)) (x1 x2 : (⟨S1600000, .i32⟩ : BufTy).Contents (Elt F))
    (x3 : (⟨S512x128, .f32⟩ : BufTy).Contents (Elt F)) (x4 : (⟨S128, .f32⟩ : BufTy).Contents (Elt F))
    (x5 : (⟨S128x128, .f32⟩ : BufTy).Contents (Elt F)) (x6 : (⟨S128, .f32⟩ : BufTy).Contents (Elt F)) :
    val_main_v132 (F := F) x0 x1 x2 x3 x4 x5 x6
      = Cert.Spec.mid (F := F) (val_main_v9 (F := F) x0 x3 x4 x5 x6) x1 x2 := rfl

end Mid

/-- The reference's last two layers are the output row of every node. -/
theorem head_eq (x0 : (⟨S100000x512, .f32⟩ : BufTy).Contents (Elt Ideal)) (x1 x2 : (⟨S1600000, .i32⟩ : BufTy).Contents (Elt Ideal))
    (x3 : (⟨S512x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S384x128, .f32⟩ : BufTy).Contents (Elt Ideal)) (x8 : (⟨S128, .f32⟩ : BufTy).Contents (Elt Ideal))
    (x9 : (⟨S128x2, .f32⟩ : BufTy).Contents (Elt Ideal)) (x10 : (⟨S2, .f32⟩ : BufTy).Contents (Elt Ideal)) :
    val_main_v141 (F := Ideal) x0 x1 x2 x3 x4 x5 x6 x7 x8 x9 x10
      = Cert.Spec.head (val_main_v132 (F := Ideal) x0 x1 x2 x3 x4 x5 x6) x7 x8 x9 x10 := by
  funext i
  obtain ⟨p, q, rfl⟩ : ∃ p q, i = ix2 p q := ⟨i 0, i 1, eq_ix2 i⟩
  rw [Cert.Spec.head_apply]
  have hrow : Cert.Spec.rowAt (val_main_v137 (F := Ideal) x0 x1 x2 x3 x4 x5 x6 x7 x8) p
      = Cert.DenseLayer.relu (Cert.DenseLayer.affine
          (Cert.Spec.rowAt (val_main_v132 (F := Ideal) x0 x1 x2 x3 x4 x5 x6) p) x7 (Cert.Spec.vecOf x8)) := funext fun k =>
    layer_relu_apply dot_S100000x384_S384x128_S100000x128_1_0_0_1_n_n_wf bcast_S128_S1x128_1 bcast_S1x128_S100000x128_0_1
      bcast_S_S100000x128 (val_main_v132 (F := Ideal) x0 x1 x2 x3 x4 x5 x6) x7 x8 p k
  rw [← hrow]
  exact Cert.HostAffine.affine_apply dot_S100000x128_S128x2_S100000x2_1_0_0_1_n_n_wf bcast_S2_S1x2_1 bcast_S1x2_S100000x2_0_1
    (val_main_v137 (F := Ideal) x0 x1 x2 x3 x4 x5 x6 x7 x8) x9 x10 p q

/-- The reference's result array is the specification function of its arguments. -/
theorem out_eq (x0 : (⟨S100000x512, .f32⟩ : BufTy).Contents (Elt Ideal)) (x1 x2 : (⟨S1600000, .i32⟩ : BufTy).Contents (Elt Ideal))
    (x3 : (⟨S512x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S384x128, .f32⟩ : BufTy).Contents (Elt Ideal)) (x8 : (⟨S128, .f32⟩ : BufTy).Contents (Elt Ideal))
    (x9 : (⟨S128x2, .f32⟩ : BufTy).Contents (Elt Ideal)) (x10 : (⟨S2, .f32⟩ : BufTy).Contents (Elt Ideal)) :
    val_main_v141 (F := Ideal) x0 x1 x2 x3 x4 x5 x6 x7 x8 x9 x10
      = Cert.Spec.out x0 x1 x2 x3 x4 x5 x6 x7 x8 x9 x10 := by
  unfold Cert.Spec.out
  rw [head_eq, mid_eq, hidden_eq]

/-- The reference program's run term is the specification function at the argument buffers. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v141 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v141_eq (F := Ideal) m c).trans (out_eq _ _ _ _ _ _ _ _ _ _ _)

end Cert.RefSide
end
-- ==== Proof.lean ====
/-
  The five claims about the graph network's two-kernel program and its plain reference.

  Both programs compute, for a graph of 100000 nodes and 1600000 edges, the hidden rows
  h = relu(relu(x·W1 + b1)·W2 + b2), the three wavelet filters (a·h + b·L(h)) + c·L(L(h)) of the degree-normalised Laplacian
  L(f) = f − D ⊙ scatter_add_dst(gather_src(f ⊙ D)), D = max(deg, 1)^(-1/2), joined along the columns, and the head
  relu(f·Wm1 + bm1)·Wm2 + bm2. The kernel program runs the two dense stages as row-tiled kernels (50 blocks of 2000 rows, bf16
  operands, the second head matrix and bias zero-padded to 128 columns and the result cut back to 2) and the middle stretch on
  the host, computing L(h) and L(L(h)) once; the reference recomputes them per filter. On the extended reals a cast between
  float formats is the identity, a product into the zero accumulator plus a bias is the host's product plus bias, and the
  padding columns are never read, so both end at ONE function of the arguments, `Cert.Spec.out`; no law that needs finite
  inputs is used, and the precondition is never opened.
  Frames: each kernel program is run segment by segment (two regions among five host stretches), every unscoped buffer named
  at the last boundary, where the argument arrays are as launched; the reference's frame is its run with the result dropped.
  The idealization rewrote nothing, so `preserves` asks nothing.
-/
import proofs.«142224_j10273561772519_1_alg».proof.Defs
import proofs.«142224_j10273561772519_1_alg».proof.Proof.Gen.Kernel
import proofs.«142224_j10273561772519_1_alg».proof.Proof.Gen.KernelIdeal
import proofs.«142224_j10273561772519_1_alg».proof.Proof.Gen.ReferenceIdeal
import proofs.«142224_j10273561772519_1_alg».proof.Proof.Gen.Pre_finite_inputs
import proofs.«142224_j10273561772519_1_alg».proof.Proof.Gen.ReferenceIdeal.Run
import proofs.«142224_j10273561772519_1_alg».proof.Proof.K.Run
import proofs.«142224_j10273561772519_1_alg».proof.Proof.KI.Run
import proofs.«142224_j10273561772519_1_alg».proof.Proof.KI.Value
import proofs.«142224_j10273561772519_1_alg».proof.Proof.RefSide
import Idealize.ShloMosaic.Adequacy
import Idealize.ShloMosaic.Init

noncomputable section

namespace Cert.Proof

open Idealize.ShloMosaic Idealize.SL.Sem

/-- The word-level kernel program runs and leaves its eleven argument arrays as launched. -/
theorem frame_k : Cert.frame_Kernel := fun m ρ _ =>
  (θ_run Cert.Kernel.defs _ _).mono (fun _ h c => ⟨h c 0, h c 1, h c 2, h c 3, h c 4, h c 5, h c 6, h c 7, h c 8, h c 9, h c 10⟩) (Cert.Kernel.Fr.frame_args (F := Bits) m ρ)

/-- So does the idealized kernel program. -/
theorem frame_ki : Cert.frame_KernelIdeal := fun m ρ _ =>
  (θ_run Cert.KernelIdeal.defs _ _).mono (fun _ h c => ⟨h c 0, h c 1, h c 2, h c 3, h c 4, h c 5, h c 6, h c 7, h c 8, h c 9, h c 10⟩) (Cert.KernelIdeal.Fr.frame_args (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result array:
    `Cert.Spec.out` of the arguments. -/
theorem algebraic : Cert.algebraic_KernelIdeal_ReferenceIdeal := by
  intro m ρ m' ρ' _ hagree
  refine ⟨_, (θ_run Cert.KernelIdeal.defs _ _).mono
      (fun _ h c => ⟨(h c).1, (h c).2 0, (h c).2 1, (h c).2 2, (h c).2 3, (h c).2 4, (h c).2 5, (h c).2 6, (h c).2 7, (h c).2 8, (h c).2 9, (h c).2 10⟩)
      (Cert.KernelIdeal.Fr.run_value m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.RefSide.ref_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
